-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S64x96 : Shape := ⟨2, ![64, 96]⟩
abbrev S64 : Shape := ⟨1, ![64]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S64x96 : S_.BroadcastsInDim S64x96 (![] : Fin 0 → Fin S64x96.rank)
  reducesTo_S64x96_S_d0_1 : S64x96.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64x96 .f32) (main_arg10 : FVec F S64x96 .f32) (main_arg11 : FVec F S64 .f32) (main_v33 : IVec S_ 1) : IVec S_ 1 :=
  let main_v34 : FVec F S64x96 .f32 := Host.absf main_arg9
  let main_cst_12 : FVec F S_ .f32 := constant S_ .f32 0x7F800000#32
  let main_v35 : FVec F S64x96 .f32 := broadcastInDim S64x96 ![] bcast_S_S64x96 main_cst_12
  let main_v36 : IVec S64x96 1 := cmpf .olt main_v34 main_v35
  let main_c_13 : IVec S_ 1 := constantI S_ 1 1#1
  let main_v37 : IVec S_ 1 := (fun x v => Host.reduce IntOp.andi x v reducesTo_S64x96_S_d0_1 h_S_) main_v36 main_c_13
  let main_v38 : IVec S_ 1 := andi main_v33 main_v37
  let main_v39 : FVec F S64x96 .f32 := Host.absf main_arg10
  let main_cst_14 : FVec F S_ .f32 := constant S_ .f32 0x7F800000#32
  let main_v40 : FVec F S64x96 .f32 := broadcastInDim S64x96 ![] bcast_S_S64x96 main_cst_14
  let main_v41 : IVec S64x96 1 := cmpf .olt main_v39 main_v40
  let main_c_15 : IVec S_ 1 := constantI S_ 1 1#1
  let main_v42 : IVec S_ 1 := (fun x v => Host.reduce IntOp.andi x v reducesTo_S64x96_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  main_v48

def fn_part1 {F : FTy → Type} [FloatOps F] (main_arg6 : FVec F S96x96 .f32) (main_arg7 : FVec F S96x96 .f32) (main_arg8 : FVec F S96 .f32) (main_arg9 : FVec F S64x96 .f32) (main_arg10 : FVec F S64x96 .f32) (main_arg11 : FVec F S64 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96x96 .f32 := Host.absf main_arg7
  let main_cst_8 : FVec F S_ .f32 := constant S_ .f32 0x7F800000#32
  let main_v25 : FVec F S96x96 .f32 := broadcastInDim S96x96 ![] bcast_S_S96x96 main_cst_8
  let main_v26 : IVec S96x96 1 := cmpf .olt main_v24 main_v25
  let main_c_9 : IVec S_ 1 := constantI S_ 1 1#1
  let main_v27 : IVec S_ 1 := (fun x v => Host.reduce IntOp.andi x v reducesTo_S96x96_S_d0_1 h_S_) main_v26 main_c_9
  let main_v28 : IVec S_ 1 := andi main_v23 main_v27
  let main_v29 : FVec F S96 .f32 := Host.absf main_arg8
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  fn_part2 (F := F) main_arg9 main_arg10 main_arg11 main_v33

def fn {F : FTy → Type} [FloatOps F] (main_arg0 : FVec F S50000x96 .f32) (main_arg1 : IVec S800000 32) (main_arg2 : IVec S800000 32) (main_arg3 : FVec F S96x96 .f32) (main_arg4 : FVec F S96x96 .f32) (main_arg5 : FVec F S96 .f32) (main_arg6 : FVec F S96x96 .f32) (main_arg7 : FVec F S96x96 .f32) (main_arg8 : FVec F S96 .f32) (main_arg9 : FVec F S64x96 .f32) (main_arg10 : FVec F S64x96 .f32) (main_arg11 : FVec F S64 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S96x96 .f32 := Host.absf main_arg3
  let main_cst_0 : FVec F S_ .f32 := constant S_ .f32 0x7F800000#32
  let main_v5 : FVec F S96x96 .f32 := broadcastInDim S96x96 ![] bcast_S_S96x96 main_cst_0
  let main_v6 : IVec S96x96 1 := cmpf .olt main_v4 main_v5
  let main_c_1 : IVec S_ 1 := constantI S_ 1 1#1
  let main_v7 : IVec S_ 1 := (fun x v => Host.reduce IntOp.andi x v reducesTo_S96x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg6 main_arg7 main_arg8 main_arg9 main_arg10 main_arg11 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S64x96 : Shape := ⟨2, ![64, 96]⟩
abbrev S64 : Shape := ⟨1, ![64]⟩
abbrev S_ : Shape := ⟨0, ![]⟩
abbrev S50000 : Shape := ⟨1, ![50000]⟩
abbrev S800000x1 : Shape := ⟨2, ![800000, 1]⟩
abbrev S800000x96 : Shape := ⟨2, ![800000, 96]⟩
abbrev S50000x1 : Shape := ⟨2, ![50000, 1]⟩
abbrev S1x96 : Shape := ⟨2, ![1, 96]⟩
abbrev S5000x96 : Shape := ⟨2, ![5000, 96]⟩
abbrev S96x64 : Shape := ⟨2, ![96, 64]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 84
  | .vmem => 27
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96x96, .f32⟩
  | .hbm, ⟨8, _⟩ => ⟨S96, .f32⟩
  | .hbm, ⟨9, _⟩ => ⟨S64x96, .f32⟩
  | .hbm, ⟨10, _⟩ => ⟨S64x96, .f32⟩
  | .hbm, ⟨11, _⟩ => ⟨S64, .f32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .i32⟩
  | .hbm, ⟨25, _⟩ => ⟨S800000, .i32⟩
  | .hbm, ⟨26, _⟩ => ⟨S800000, .i1⟩
  | .hbm, ⟨27, _⟩ => ⟨S_, .i32⟩
  | .hbm, ⟨28, _⟩ => ⟨S800000, .i32⟩
  | .hbm, ⟨29, _⟩ => ⟨S800000, .i32⟩
  | .hbm, ⟨30, _⟩ => ⟨S800000, .i32⟩
  | .hbm, ⟨31, _⟩ => ⟨S800000x1, .i32⟩
  | .hbm, ⟨32, _⟩ => ⟨S800000x96, .f32⟩
  | .hbm, ⟨33, _⟩ => ⟨S_, .f32⟩
  | .hbm, ⟨34, _⟩ => ⟨S50000x96, .f32⟩
  | .hbm, ⟨35, _⟩ => ⟨S800000x1, .i32⟩
  | .hbm, ⟨36, _⟩ => ⟨S50000x96, .f32⟩
  | .hbm, ⟨37, _⟩ => ⟨S50000x1, .f32⟩
  | .hbm, ⟨38, _⟩ => ⟨S50000x96, .f32⟩
  | .hbm, ⟨39, _⟩ => ⟨S50000x96, .f32⟩
  | .hbm, ⟨40, _⟩ => ⟨S96x96, .f32⟩
  | .hbm, ⟨41, _⟩ => ⟨S96x96, .f32⟩
  | .hbm, ⟨42, _⟩ => ⟨S1x96, .f32⟩
  | .hbm, ⟨43, _⟩ => ⟨S50000x96, .f32⟩
  | .hbm, ⟨44, _⟩ => ⟨S_, .i32⟩
  | .hbm, ⟨45, _⟩ => ⟨S800000, .i32⟩
  | .hbm, ⟨46, _⟩ => ⟨S800000, .i1⟩
  | .hbm, ⟨47, _⟩ => ⟨S_, .i32⟩
  | .hbm, ⟨48, _⟩ => ⟨S800000, .i32⟩
  | .hbm, ⟨49, _⟩ => ⟨S800000, .i32⟩
  | .hbm, ⟨50, _⟩ => ⟨S800000, .i32⟩
  | .hbm, ⟨51, _⟩ => ⟨S800000x1, .i32⟩
  | .hbm, ⟨52, _⟩ => ⟨S800000x96, .f32⟩
  | .hbm, ⟨53, _⟩ => ⟨S_, .f32⟩
  | .hbm, ⟨54, _⟩ => ⟨S50000x96, .f32⟩
  | .hbm, ⟨55, _⟩ => ⟨S800000x1, .i32⟩
  | .hbm, ⟨56, _⟩ => ⟨S50000x96, .f32⟩
  | .hbm, ⟨57, _⟩ => ⟨S50000x1, .f32⟩
  | .hbm, ⟨58, _⟩ => ⟨S50000x96, .f32⟩
  | .hbm, ⟨59, _⟩ => ⟨S50000x96, .f32⟩
  | .hbm, ⟨60, _⟩ => ⟨S96x96, .f32⟩
  | .hbm, ⟨61, _⟩ => ⟨S96x96, .f32⟩
  | .hbm, ⟨62, _⟩ => ⟨S1x96, .f32⟩
  | .hbm, ⟨63, _⟩ => ⟨S50000x96, .f32⟩
  | .hbm, ⟨64, _⟩ => ⟨S_, .i32⟩
  | .hbm, ⟨65, _⟩ => ⟨S800000, .i32⟩
  | .hbm, ⟨66, _⟩ => ⟨S800000, .i1⟩
  | .hbm, ⟨67, _⟩ => ⟨S_, .i32⟩
  | .hbm, ⟨68, _⟩ => ⟨S800000, .i32⟩
  | .hbm, ⟨69, _⟩ => ⟨S800000, .i32⟩
  | .hbm, ⟨70, _⟩ => ⟨S800000, .i32⟩
  | .hbm, ⟨71, _⟩ => ⟨S800000x1, .i32⟩
  | .hbm, ⟨72, _⟩ => ⟨S800000x96, .f32⟩
  | .hbm, ⟨73, _⟩ => ⟨S_, .f32⟩
  | .hbm, ⟨74, _⟩ => ⟨S50000x96, .f32⟩
  | .hbm, ⟨75, _⟩ => ⟨S800000x1, .i32⟩
  | .hbm, ⟨76, _⟩ => ⟨S50000x96, .f32⟩
  | .hbm, ⟨77, _⟩ => ⟨S50000x1, .f32⟩
  | .hbm, ⟨78, _⟩ => ⟨S50000x96, .f32⟩
  | .hbm, ⟨79, _⟩ => ⟨S50000x96, .f32⟩
  | .hbm, ⟨80, _⟩ => ⟨S96x64, .f32⟩
  | .hbm, ⟨81, _⟩ => ⟨S96x64, .f32⟩
  | .hbm, ⟨82, _⟩ => ⟨S1x64, .f32⟩
  | .hbm, ⟨83, _⟩ => ⟨S50000x64, .f32⟩
  | .local _ .vmem, ⟨0, _⟩ => ⟨S5000x96, .f32⟩
  | .local _ .vmem, ⟨1, _⟩ => ⟨S5000x96, .f32⟩
  | .local _ .vmem, ⟨2, _⟩ => ⟨S5000x96, .f32⟩
  | .local _ .vmem, ⟨3, _⟩ => ⟨S5000x96, .f32⟩
  | .local _ .vmem, ⟨4, _⟩ => ⟨S96x96, .f32⟩
  | .local _ .vmem, ⟨5, _⟩ => ⟨S96x96, .f32⟩
  | .local _ .vmem, ⟨6, _⟩ => ⟨S1x96, .f32⟩
  | .local _ .vmem, ⟨7, _⟩ => ⟨S5000x96, .f32⟩
  | .local _ .vmem, ⟨8, _⟩ => ⟨S5000x96, .f32⟩
  | .local _ .vmem, ⟨9, _⟩ => ⟨S5000x96, .f32⟩
  | .local _ .vmem, ⟨10, _⟩ => ⟨S5000x96, .f32⟩
  | .local _ .vmem, ⟨11, _⟩ => ⟨S5000x96, .f32⟩
  | .local _ .vmem, ⟨12, _⟩ => ⟨S5000x96, .f32⟩
  | .local _ .vmem, ⟨13, _⟩ => ⟨S96x96, .f32⟩
  | .local _ .vmem, ⟨14, _⟩ => ⟨S96x96, .f32⟩
  | .local _ .vmem, ⟨15, _⟩ => ⟨S1x96, .f32⟩
  | .local _ .vmem, ⟨16, _⟩ => ⟨S5000x96, .f32⟩
  | .local _ .vmem, ⟨17, _⟩ => ⟨S5000x96, .f32⟩
  | .local _ .vmem, ⟨18, _⟩ => ⟨S5000x96, .f32⟩
  | .local _ .vmem, ⟨19, _⟩ => ⟨S5000x96, .f32⟩
  | .local _ .vmem, ⟨20, _⟩ => ⟨S5000x96, .f32⟩
  | .local _ .vmem, ⟨21, _⟩ => ⟨S5000x96, .f32⟩
  | .local _ .vmem, ⟨22, _⟩ => ⟨S96x64, .f32⟩
  | .local _ .vmem, ⟨23, _⟩ => ⟨S96x64, .f32⟩
  | .local _ .vmem, ⟨24, _⟩ => ⟨S1x64, .f32⟩
  | .local _ .vmem, ⟨25, _⟩ => ⟨S5000x64, .f32⟩
  | .local _ .vmem, ⟨26, _⟩ => ⟨S5000x64, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_cst_2 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_3 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_4 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_c_8 : Ref sig .tc := ⟨.hbm, 64, rfl⟩
abbrev main_v42 : Ref sig .tc := ⟨.hbm, 65, rfl⟩
abbrev main_v43 : Ref sig .tc := ⟨.hbm, 66, rfl⟩
abbrev main_c_9 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_10 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x96 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S96x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S96x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x96 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S96x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S96x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  transposes_S96x96_S96x96_1_0 : S96x96.Transposes [1, 0] S96x96
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  bitsLt_bf16_f32 : FTy.bits .bf16 < FTy.bits .f32
  shapeCasts_S5000x96_S5000x96 : S5000x96.ShapeCasts S5000x96
  inb_S96x96_S96x96_0_0 : ∀ a, (![0, 0] : Fin 2 → Nat) a + S96x96.size a ≤ S96x96.size a
  h_S96x96 : 0 < S96x96.numel
  shapeCasts_S96x96_S96x96 : S96x96.ShapeCasts S96x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  transposes_S64x96_S96x64_1_0 : S64x96.Transposes [1, 0] S96x64
  shapeCasts_S64_S1x64 : S64.ShapeCasts S1x64
  inb_S96x64_S96x64_0_0 : ∀ a, (![0, 0] : Fin 2 → Nat) a + S96x64.size a ≤ S96x64.size a
  h_S96x64 : 0 < S96x64.numel
  shapeCasts_S96x64_S96x64 : S96x64.ShapeCasts S96x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S5000x96_S96x96_S5000x96_1_0_0_1_n_n_wf : DotDims.WF S5000x96 S96x96 S5000x96 [1] [0] [0] [1] [] []
  dot_S5000x96_S96x64_S5000x64_1_0_0_1_n_n_wf : DotDims.WF S5000x96 S96x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x96.size a ≤ S50000x96.size a
  hwx0_0 : ∀ i : grid0.Coords, EltTy.bits .f32 = 32 ∨ (Rect.block (s := S50000x96) S5000x96.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x96.size a ≤ S50000x96.size a
  hwx0_1 : ∀ i : grid0.Coords, EltTy.bits .f32 = 32 ∨ (Rect.block (s := S50000x96) S5000x96.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x96.size a ≤ S96x96.size a
  hwx0_3 : ∀ i : grid0.Coords, EltTy.bits .f32 = 32 ∨ (Rect.block (s := S96x96) S96x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x96.size a ≤ S1x96.size a
  hwx0_4 : ∀ i : grid0.Coords, EltTy.bits .f32 = 32 ∨ (Rect.block (s := S1x96) S1x96.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x96.size a ≤ S50000x96.size a
  hwx0_5 : ∀ i : grid0.Coords, EltTy.bits .f32 = 32 ∨ (Rect.block (s := S50000x96) S5000x96.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x96.size a ≤ S50000x96.size a
  hwx1_1 : ∀ i : grid1.Coords, EltTy.bits .f32 = 32 ∨ (Rect.block (s := S50000x96) S5000x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S96x96.size a ≤ S96x96.size a
  hwx1_2 : ∀ i : grid1.Coords, EltTy.bits .f32 = 32 ∨ (Rect.block (s := S96x96) S96x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S96x96.size a ≤ S96x96.size a
  hwx1_3 : ∀ i : grid1.Coords, EltTy.bits .f32 = 32 ∨ (Rect.block (s := S96x96) S96x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x96.size a ≤ S1x96.size a
  hwx1_4 : ∀ i : grid1.Coords, EltTy.bits .f32 = 32 ∨ (Rect.block (s := S1x96) S1x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x96.size a ≤ S50000x96.size a
  hwx1_5 : ∀ i : grid1.Coords, EltTy.bits .f32 = 32 ∨ (Rect.block (s := S50000x96) S5000x96.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x96.size a ≤ S50000x96.size a
  hwx2_0 : ∀ i : grid2.Coords, EltTy.bits .f32 = 32 ∨ (Rect.block (s := S50000x96) S5000x96.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x96.size a ≤ S50000x96.size a
  hwx2_1 : ∀ i : grid2.Coords, EltTy.bits .f32 = 32 ∨ (Rect.block (s := S50000x96) S5000x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S96x64.size a ≤ S96x64.size a
  hwx2_2 : ∀ i : grid2.Coords, EltTy.bits .f32 = 32 ∨ (Rect.block (s := S96x64) S96x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S96x64.size a ≤ S96x64.size a
  hwx2_3 : ∀ i : grid2.Coords, EltTy.bits .f32 = 32 ∨ (Rect.block (s := S96x64) S96x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S5000x96_S96x96_S5000x96_1_0_0_1_n_n : DotDims S5000x96 S96x96 S5000x96 where
  lhsContracting := [1]
  rhsContracting := [0]
  lhsNonContracting := [0]
  rhsNonContracting := [1]
  lhsBatch := []
  rhsBatch := []
  wf := dot_S5000x96_S96x96_S5000x96_1_0_0_1_n_n_wf
def dot_S5000x96_S96x64_S5000x64_1_0_0_1_n_n : DotDims S5000x96 S96x64 S5000x64 where
  lhsContracting := [1]
  rhsContracting := [0]
  lhsNonContracting := [0]
  rhsNonContracting := [1]
  lhsBatch := []
  rhsBatch := []
  wf := dot_S5000x96_S96x64_S5000x64_1_0_0_1_n_n_wf

abbrev win0_0 : Pipeline.Window sig grid0 :=
  Pipeline.Window.ofSpec (Memref.whole main_arg0) S5000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S5000x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v21) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v22) S96x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x96.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S96x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S96x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x96.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v41) S5000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v54) S5000x96.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v55) S96x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S96x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v57) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S64x96 : Shape := ⟨2, ![64, 96]⟩
abbrev S64 : Shape := ⟨1, ![64]⟩
abbrev S_ : Shape := ⟨0, ![]⟩
abbrev S800000x1 : Shape := ⟨2, ![800000, 1]⟩
abbrev S800000x96 : Shape := ⟨2, ![800000, 96]⟩
abbrev S50000 : Shape := ⟨1, ![50000]⟩
abbrev S50000x1 : Shape := ⟨2, ![50000, 1]⟩
abbrev S1x96 : Shape := ⟨2, ![1, 96]⟩
abbrev S96x64 : Shape := ⟨2, ![96, 64]⟩
abbrev S50000x64 : Shape := ⟨2, ![50000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S50000x96, .f32⟩
  | .hbm, ⟨1, _⟩ => ⟨S800000, .i32⟩
  | .hbm, ⟨2, _⟩ => ⟨S800000, .i32⟩
  | .hbm, ⟨3, _⟩ => ⟨S96x96, .f32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96x96, .f32⟩
  | .hbm, ⟨8, _⟩ => ⟨S96, .f32⟩
  | .hbm, ⟨9, _⟩ => ⟨S64x96, .f32⟩
  | .hbm, ⟨10, _⟩ => ⟨S64x96, .f32⟩
  | .hbm, ⟨11, _⟩ => ⟨S64, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S800000x96, .f32⟩
  | .hbm, ⟨21, _⟩ => ⟨S_, .f32⟩
  | .hbm, ⟨22, _⟩ => ⟨S50000x96, .f32⟩
  | .hbm, ⟨23, _⟩ => ⟨S800000x1, .i32⟩
  | .hbm, ⟨24, _⟩ => ⟨S50000x96, .f32⟩
  | .hbm, ⟨25, _⟩ => ⟨S_, .f32⟩
  | .hbm, ⟨26, _⟩ => ⟨S800000, .f32⟩
  | .hbm, ⟨27, _⟩ => ⟨S_, .f32⟩
  | .hbm, ⟨28, _⟩ => ⟨S50000, .f32⟩
  | .hbm, ⟨29, _⟩ => ⟨S800000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S96x96, .f32⟩
  | .hbm, ⟨38, _⟩ => ⟨S50000x96, .f32⟩
  | .hbm, ⟨39, _⟩ => ⟨S96x96, .f32⟩
  | .hbm, ⟨40, _⟩ => ⟨S50000x96, .f32⟩
  | .hbm, ⟨41, _⟩ => ⟨S50000x96, .f32⟩
  | .hbm, ⟨42, _⟩ => ⟨S1x96, .f32⟩
  | .hbm, ⟨43, _⟩ => ⟨S50000x96, .f32⟩
  | .hbm, ⟨44, _⟩ => ⟨S50000x96, .f32⟩
  | .hbm, ⟨45, _⟩ => ⟨S_, .f32⟩
  | .hbm, ⟨46, _⟩ => ⟨S50000x96, .f32⟩
  | .hbm, ⟨47, _⟩ => ⟨S50000x96, .f32⟩
  | .hbm, ⟨48, _⟩ => ⟨S_, .i32⟩
  | .hbm, ⟨49, _⟩ => ⟨S800000, .i32⟩
  | .hbm, ⟨50, _⟩ => ⟨S800000, .i1⟩
  | .hbm, ⟨51, _⟩ => ⟨S_, .i32⟩
  | .hbm, ⟨52, _⟩ => ⟨S800000, .i32⟩
  | .hbm, ⟨53, _⟩ => ⟨S800000, .i32⟩
  | .hbm, ⟨54, _⟩ => ⟨S800000, .i32⟩
  | .hbm, ⟨55, _⟩ => ⟨S800000x1, .i32⟩
  | .hbm, ⟨56, _⟩ => ⟨S800000x96, .f32⟩
  | .hbm, ⟨57, _⟩ => ⟨S_, .f32⟩
  | .hbm, ⟨58, _⟩ => ⟨S50000x96, .f32⟩
  | .hbm, ⟨59, _⟩ => ⟨S800000x1, .i32⟩
  | .hbm, ⟨60, _⟩ => ⟨S50000x96, .f32⟩
  | .hbm, ⟨61, _⟩ => ⟨S_, .f32⟩
  | .hbm, ⟨62, _⟩ => ⟨S800000, .f32⟩
  | .hbm, ⟨63, _⟩ => ⟨S_, .f32⟩
  | .hbm, ⟨64, _⟩ => ⟨S50000, .f32⟩
  | .hbm, ⟨65, _⟩ => ⟨S800000x1, .i32⟩
  | .hbm, ⟨66, _⟩ => ⟨S50000, .f32⟩
  | .hbm, ⟨67, _⟩ => ⟨S_, .f32⟩
  | .hbm, ⟨68, _⟩ => ⟨S50000, .f32⟩
  | .hbm, ⟨69, _⟩ => ⟨S50000, .f32⟩
  | .hbm, ⟨70, _⟩ => ⟨S50000x1, .f32⟩
  | .hbm, ⟨71, _⟩ => ⟨S50000x96, .f32⟩
  | .hbm, ⟨72, _⟩ => ⟨S50000x96, .f32⟩
  | .hbm, ⟨73, _⟩ => ⟨S96x96, .f32⟩
  | .hbm, ⟨74, _⟩ => ⟨S50000x96, .f32⟩
  | .hbm, ⟨75, _⟩ => ⟨S96x96, .f32⟩
  | .hbm, ⟨76, _⟩ => ⟨S50000x96, .f32⟩
  | .hbm, ⟨77, _⟩ => ⟨S50000x96, .f32⟩
  | .hbm, ⟨78, _⟩ => ⟨S1x96, .f32⟩
  | .hbm, ⟨79, _⟩ => ⟨S50000x96, .f32⟩
  | .hbm, ⟨80, _⟩ => ⟨S50000x96, .f32⟩
  | .hbm, ⟨81, _⟩ => ⟨S_, .f32⟩
  | .hbm, ⟨82, _⟩ => ⟨S50000x96, .f32⟩
  | .hbm, ⟨83, _⟩ => ⟨S50000x96, .f32⟩
  | .hbm, ⟨84, _⟩ => ⟨S_, .i32⟩
  | .hbm, ⟨85, _⟩ => ⟨S800000, .i32⟩
  | .hbm, ⟨86, _⟩ => ⟨S800000, .i1⟩
  | .hbm, ⟨87, _⟩ => ⟨S_, .i32⟩
  | .hbm, ⟨88, _⟩ => ⟨S800000, .i32⟩
  | .hbm, ⟨89, _⟩ => ⟨S800000, .i32⟩
  | .hbm, ⟨90, _⟩ => ⟨S800000, .i32⟩
  | .hbm, ⟨91, _⟩ => ⟨S800000x1, .i32⟩
  | .hbm, ⟨92, _⟩ => ⟨S800000x96, .f32⟩
  | .hbm, ⟨93, _⟩ => ⟨S_, .f32⟩
  | .hbm, ⟨94, _⟩ => ⟨S50000x96, .f32⟩
  | .hbm, ⟨95, _⟩ => ⟨S800000x1, .i32⟩
  | .hbm, ⟨96, _⟩ => ⟨S50000x96, .f32⟩
  | .hbm, ⟨97, _⟩ => ⟨S_, .f32⟩
  | .hbm, ⟨98, _⟩ => ⟨S800000, .f32⟩
  | .hbm, ⟨99, _⟩ => ⟨S_, .f32⟩
  | .hbm, ⟨100, _⟩ => ⟨S50000, .f32⟩
  | .hbm, ⟨101, _⟩ => ⟨S800000x1, .i32⟩
  | .hbm, ⟨102, _⟩ => ⟨S50000, .f32⟩
  | .hbm, ⟨103, _⟩ => ⟨S_, .f32⟩
  | .hbm, ⟨104, _⟩ => ⟨S50000, .f32⟩
  | .hbm, ⟨105, _⟩ => ⟨S50000, .f32⟩
  | .hbm, ⟨106, _⟩ => ⟨S50000x1, .f32⟩
  | .hbm, ⟨107, _⟩ => ⟨S50000x96, .f32⟩
  | .hbm, ⟨108, _⟩ => ⟨S50000x96, .f32⟩
  | .hbm, ⟨109, _⟩ => ⟨S96x64, .f32⟩
  | .hbm, ⟨110, _⟩ => ⟨S50000x64, .f32⟩
  | .hbm, ⟨111, _⟩ => ⟨S96x64, .f32⟩
  | .hbm, ⟨112, _⟩ => ⟨S50000x64, .f32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_3 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call0_cst : Ref sig .tc := ⟨.hbm, 45, rfl⟩
abbrev main_call0_v0 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_6 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_cst_7 : Ref sig .tc := ⟨.hbm, 61, rfl⟩
abbrev main_v38 : Ref sig .tc := ⟨.hbm, 62, rfl⟩
abbrev main_cst_8 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_9 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call1_cst : Ref sig .tc := ⟨.hbm, 81, rfl⟩
abbrev main_call1_v0 : Ref sig .tc := ⟨.hbm, 82, rfl⟩
abbrev main_v55 : Ref sig .tc := ⟨.hbm, 83, rfl⟩
abbrev main_c_10 : Ref sig .tc := ⟨.hbm, 84, rfl⟩
abbrev main_v56 : Ref sig .tc := ⟨.hbm, 85, rfl⟩
abbrev main_v57 : Ref sig .tc := ⟨.hbm, 86, rfl⟩
abbrev main_c_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_12 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_13 : Ref sig .tc := ⟨.hbm, 97, rfl⟩
abbrev main_v66 : Ref sig .tc := ⟨.hbm, 98, rfl⟩
abbrev main_cst_14 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_15 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x96 : S_.BroadcastsInDim S50000x96 (![] : Fin 0 → Fin S50000x96.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  transposes_S96x96_S96x96_1_0 : S96x96.Transposes [1, 0] S96x96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  transposes_S64x96_S96x64_1_0 : S64x96.Transposes [1, 0] S96x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  scatter_S50000_S800000x1_S800000_n_0_0_1_wf : ScatterDims.WF S50000 S800000x1 S800000 [] [0] [0] 1
  dot_S50000x96_S96x96_S50000x96_1_0_0_1_n_n_wf : DotDims.WF S50000x96 S96x96 S50000x96 [1] [0] [0] [1] [] []
  dot_S50000x96_S96x64_S50000x64_1_0_0_1_n_n_wf : DotDims.WF S50000x96 S96x64 S50000x64 [1] [0] [0] [1] [] []

variable [Facts₀]

def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x96_S96x64_S50000x64_1_0_0_1_n_n : DotDims S50000x96 S96x64 S50000x64 where
  lhsContracting := [1]
  rhsContracting := [0]
  lhsNonContracting := [0]
  rhsNonContracting := [1]
  lhsBatch := []
  rhsBatch := []
  wf := dot_S50000x96_S96x64_S50000x64_1_0_0_1_n_n_wf

class Facts : Prop extends Facts₀ where

variable [Facts]
-- ==== Proof.KStages.lean ====
/-
  What the host operations between the launches compute, as named functions on the extended reals.

  Before each launch the host forms, from the current node features `h`, the edge sources `src` and the edge
  destinations `dst`:
    * the neighbour sum: row `src e` of `h` (a negative source counted from the end, the row number then clamped into
      range) gathered for every edge e, and the gathered rows added into row `dst e` of a zero array (an
      out-of-range destination dropped);
    * the in-degree count of every node (ones added into a zero vector at `dst e`), floored at 1.0, and the
      reciprocal 1.0 / that — formed once, before the first launch, and read again before the later ones;
    * the neighbour sum with each row multiplied by that row's reciprocal;
  and it transposes the two weight matrices and lays the bias out as a `[1, d]` row. None of these is opened here:
  they are the same operations, on the same operands, on the reference's side.
-/
import proofs.«178199_j67130338837023_1_alg».proof.Proof.Gen.KernelIdeal
import Idealize.ShloMosaic.PureOps.Ideal

noncomputable section

namespace Cert.KernelIdeal.Stages

open Cert.KernelIdeal Cert.KernelIdeal.Facts₀ Idealize.ShloMosaic

/-- The edge sources as gather row numbers: a negative one has 50000 added, and the vector is laid out as a column. -/
def srcColumn (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge destinations laid out as a column. -/
def dstColumn (dst : IVec S800000 32) : IVec S800000x1 32 :=
  broadcastInDim S800000x1 ![0] bcast_S800000_S800000x1_0 dst

/-- The neighbour sum of `h`. -/
def neighbourSum (h : FVec Ideal S50000x96 .f32) (src dst : IVec S800000 32) : FVec Ideal S50000x96 .f32 :=
  Host.scatterAdd scatter_S50000x96_S800000x1_S800000x96_1_0_0_1
    (broadcastInDim S50000x96 ![] bcast_S_S50000x96 (constant (F := Ideal) S_ .f32 0x00000000#32)) (dstColumn dst)
    (Host.gather gather_S50000x96_S800000x1_S800000x96_1_0_n_n_0_1_196 h (srcColumn src))

/-- The in-degree count of every node. -/
def count (dst : IVec S800000 32) : FVec Ideal S50000 .f32 :=
  Host.scatterAdd scatter_S50000_S800000x1_S800000_n_0_0_1
    (broadcastInDim S50000 ![] bcast_S_S50000 (constant (F := Ideal) S_ .f32 0x00000000#32)) (dstColumn dst)
    (broadcastInDim S800000 ![] bcast_S_S800000 (constant (F := Ideal) S_ .f32 0x3F800000#32))

/-- The count floored at 1.0. -/
def floored (dst : IVec S800000 32) : FVec Ideal S50000 .f32 :=
  maximumf (count dst) (broadcastInDim S50000 ![] bcast_S_S50000 (constant (F := Ideal) S_ .f32 0x3F800000#32))

/-- 1.0 over the floored count. -/
def recip (dst : IVec S800000 32) : FVec Ideal S50000 .f32 :=
  Host.divf (broadcastInDim S50000 ![] bcast_S_S50000 (constant (F := Ideal) S_ .f32 0x3F800000#32)) (floored dst)

/-- Each row of `A` multiplied by that row's entry of the vector `r`. -/
def scaleRows (A : FVec Ideal S50000x96 .f32) (r : FVec Ideal S50000 .f32) : FVec Ideal S50000x96 .f32 :=
  mulf A (broadcastInDim S50000x96 ![0, 1] bcast_S50000x1_S50000x96_0_1 (broadcastInDim S50000x1 ![0] bcast_S50000_S50000x1_0 r))

/-- The `[96, 96]` weights transposed. -/
def transposed96 (w : FVec Ideal S96x96 .f32) : FVec Ideal S96x96 .f32 :=
  transpose S96x96 [1, 0] w transposes_S96x96_S96x96_1_0

/-- The `[64, 96]` weights transposed. -/
def transposed64 (w : FVec Ideal S64x96 .f32) : FVec Ideal S96x64 .f32 :=
  transpose S96x64 [1, 0] w transposes_S64x96_S96x64_1_0

/-- The `[96]` bias as a `[1, 96]` row. -/
def biasRow96 (b : FVec Ideal S96 .f32) : FVec Ideal S1x96 .f32 := shapeCast S1x96 b shapeCasts_S96_S1x96

/-- The `[64]` bias as a `[1, 64]` row. -/
def biasRow64 (b : FVec Ideal S64 .f32) : FVec Ideal S1x64 .f32 := shapeCast S1x64 b shapeCasts_S64_S1x64

end Cert.KernelIdeal.Stages

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.KBody.lean ====
/-
  The three kernel bodies at an index, on the extended reals.

  Each body loads a block of node features, the same rows of the scaled neighbour sums, two weight matrices and a
  bias row, and stores
      (features · W_self  +  means · W_neigh)  +  bias row      (floored at zero in the first two bodies).
  A change of float format is the identity on the extended reals, a shape cast to the same shape reads the same
  entry, a matrix product into a zero accumulator is the row-by-column sum, and a `[1, d]` row broadcast down the
  block reads its entry of the column. So an entry of what a body stores is the dense layer of its five loads.
-/
import proofs.«178199_j67130338837023_1_alg».proof.Proof.Gen.KernelIdeal.Skeleton
import proofs.«178199_j67130338837023_1_alg».proof.Proof.LibDense
import Idealize.ShloMosaic.Lib.Pipeline.Value
import Idealize.ShloMosaic.Lib.ValueIdx
import Idealize.ShloMosaic.PureOps.Ideal.Laws

noncomputable section

namespace Cert.KernelIdeal.Body

open Idealize.ShloMosaic Idealize.ShloMosaic.ValueIdx Cert.KernelIdeal Cert.KernelIdeal.Gen

/-- A `[1, d]` row read as a vector `[d]`. -/
def rowVec {d : ℕ} (v : (⟨2, ![1, d]⟩ : Shape).Idx → EReal) : (⟨1, ![d]⟩ : Shape).Idx → EReal :=
  fun j => v (ix2 (0 : Fin 1) (j 0))

/-- A `[1, d]` row broadcast down `n` rows reads, at (r, j), the row's entry j. -/
theorem row_broadcast {n d : ℕ} (v : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ v h i = rowVec v (ix1 (i 1)) := by
  refine broadcastTo_apply v h i (ix2 (0 : Fin 1) (i 1)) fun a => ?_
  match a with
  | ⟨0, _⟩ => exact (if_pos rfl).symm
  | ⟨1, _⟩ =>
    show (i 1).val = if d = 1 then 0 else (i 1).val
    have hlt : (i 1).val < d := idx2_lt1 i
    split
    · omega
    · rfl

/-- A product of two operands each behind a format change, the right one also behind a same-shape cast. -/
theorem prod_cast {n K d : ℕ} (a : (⟨2, ![n, K]⟩ : Shape).Idx → EReal) (w : (⟨2, ![K, d]⟩ : Shape).Idx → EReal)
    (hc : (⟨2, ![K, d]⟩ : Shape).ShapeCasts ⟨2, ![K, d]⟩) (i : (⟨2, ![n, d]⟩ : Shape).Idx) :
    Cert.LibDense.prod a (shapeCast ⟨2, ![K, d]⟩ w hc) i = Cert.LibDense.prod a w i := by
  rw [shapeCast_self]

/-- The first body: its stored value at an entry is the rectified layer of its loads. -/
theorem pay0_apply (x0 x1 : Vec Ideal S5000x96 .f32) (x2 x3 : Vec Ideal S96x96 .f32) (x4 : Vec Ideal S1x96 .f32)
    (i : S5000x96.Idx) :
    k0_pay1 (F := Ideal) x0 x1 x2 x3 x4 i = Cert.LibDense.relu (n := 5000) (K := 96) (d := 96) x0 x1 x2 x3 (rowVec x4) i := by
  unfold k0_pay1 Cert.LibDense.relu Cert.LibDense.affine
  refine congrArg₂ max (congrArg₂ (· + ·) (congrArg₂ (· + ·) ?_ ?_) ?_) rfl
  · refine (Cert.LibDense.matmul_plain (M := 5000) (K := 96) (N := 96) _ _ i).trans ?_
    exact prod_cast (n := 5000) (K := 96) (d := 96) x0 x2 _ i
  · refine (Cert.LibDense.matmul_plain (M := 5000) (K := 96) (N := 96) _ _ i).trans ?_
    rw [shapeCast_self x1]
    exact prod_cast (n := 5000) (K := 96) (d := 96) x1 x3 _ i
  · rw [shapeCast_self x4]
    exact row_broadcast (n := 5000) (d := 96) x4 _ i

/-- The second body: the same layer, the feature block also behind a same-shape cast. -/
theorem pay1_apply (x0 x1 : Vec Ideal S5000x96 .f32) (x2 x3 : Vec Ideal S96x96 .f32) (x4 : Vec Ideal S1x96 .f32)
    (i : S5000x96.Idx) :
    k1_pay1 (F := Ideal) x0 x1 x2 x3 x4 i = Cert.LibDense.relu (n := 5000) (K := 96) (d := 96) x0 x1 x2 x3 (rowVec x4) i := by
  unfold k1_pay1 Cert.LibDense.relu Cert.LibDense.affine
  refine congrArg₂ max (congrArg₂ (· + ·) (congrArg₂ (· + ·) ?_ ?_) ?_) rfl
  · refine (Cert.LibDense.matmul_plain (M := 5000) (K := 96) (N := 96) _ _ i).trans ?_
    rw [shapeCast_self x0]
    exact prod_cast (n := 5000) (K := 96) (d := 96) x0 x2 _ i
  · refine (Cert.LibDense.matmul_plain (M := 5000) (K := 96) (N := 96) _ _ i).trans ?_
    rw [shapeCast_self x1]
    exact prod_cast (n := 5000) (K := 96) (d := 96) x1 x3 _ i
  · rw [shapeCast_self x4]
    exact row_broadcast (n := 5000) (d := 96) x4 _ i

/-- The third body: the layer without the rectifier, onto 64 columns. -/
theorem pay2_apply (x0 x1 : Vec Ideal S5000x96 .f32) (x2 x3 : Vec Ideal S96x64 .f32) (x4 : Vec Ideal S1x64 .f32)
    (i : S5000x64.Idx) :
    k2_pay1 (F := Ideal) x0 x1 x2 x3 x4 i = Cert.LibDense.affine (n := 5000) (K := 96) (d := 64) x0 x1 x2 x3 (rowVec x4) i := by
  unfold k2_pay1 Cert.LibDense.affine
  refine congrArg₂ (· + ·) (congrArg₂ (· + ·) ?_ ?_) ?_
  · refine (Cert.LibDense.matmul_plain (M := 5000) (K := 96) (N := 64) _ _ i).trans ?_
    rw [shapeCast_self x0]
    exact prod_cast (n := 5000) (K := 96) (d := 64) x0 x2 _ i
  · refine (Cert.LibDense.matmul_plain (M := 5000) (K := 96) (N := 64) _ _ i).trans ?_
    rw [shapeCast_self x1]
    exact prod_cast (n := 5000) (K := 96) (d := 64) x1 x3 _ i
  · rw [shapeCast_self x4]
    exact row_broadcast (n := 5000) (d := 64) x4 _ i

/-! ## A block's entry against the whole arrays

An entry (p, j) of what a body stores reads row p of its two row blocks, column j of its two weight blocks and entry
j of its bias row. When those are rows, columns and an entry of whole arrays — the row of the whole array being the
block's row moved by the block's offset — the entry is the layer of the whole arrays at the moved row. -/

theorem entry0 (A0 A1 : (⟨2, ![50000, 96]⟩ : Shape).Idx → EReal) (A2 A3 : (⟨2, ![96, 96]⟩ : Shape).Idx → EReal)
    (A4 : (⟨2, ![1, 96]⟩ : Shape).Idx → EReal)
    (x0 x1 : Vec Ideal S5000x96 .f32) (x2 x3 : Vec Ideal S96x96 .f32) (x4 : Vec Ideal S1x96 .f32)
    (j : S5000x96.Idx) (i : (⟨2, ![50000, 96]⟩ : Shape).Idx)
    (h0 : ∀ k : Fin 96, x0 (ix2 (j 0) k) = A0 (ix2 (i 0) k)) (h1 : ∀ k : Fin 96, x1 (ix2 (j 0) k) = A1 (ix2 (i 0) k))
    (h2 : ∀ k : Fin 96, x2 (ix2 k (j 1)) = A2 (ix2 k (i 1))) (h3 : ∀ k : Fin 96, x3 (ix2 k (j 1)) = A3 (ix2 k (i 1)))
    (h4 : x4 (ix2 (0 : Fin 1) (j 1)) = A4 (ix2 (0 : Fin 1) (i 1))) :
    k0_pay1 (F := Ideal) x0 x1 x2 x3 x4 j = Cert.LibDense.relu (n := 50000) (K := 96) (d := 96) A0 A1 A2 A3 (rowVec A4) i :=
  (pay0_apply x0 x1 x2 x3 x4 j).trans
    (Cert.LibDense.relu_congr (n := 5000) (n' := 50000) (K := 96) (d := 96) x0 x1 A0 A1 x2 x3 A2 A3 (rowVec x4) (rowVec A4) j i h0 h1 h2 h3 h4)

theorem entry1 (A0 A1 : (⟨2, ![50000, 96]⟩ : Shape).Idx → EReal) (A2 A3 : (⟨2, ![96, 96]⟩ : Shape).Idx → EReal)
    (A4 : (⟨2, ![1, 96]⟩ : Shape).Idx → EReal)
    (x0 x1 : Vec Ideal S5000x96 .f32) (x2 x3 : Vec Ideal S96x96 .f32) (x4 : Vec Ideal S1x96 .f32)
    (j : S5000x96.Idx) (i : (⟨2, ![50000, 96]⟩ : Shape).Idx)
    (h0 : ∀ k : Fin 96, x0 (ix2 (j 0) k) = A0 (ix2 (i 0) k)) (h1 : ∀ k : Fin 96, x1 (ix2 (j 0) k) = A1 (ix2 (i 0) k))
    (h2 : ∀ k : Fin 96, x2 (ix2 k (j 1)) = A2 (ix2 k (i 1))) (h3 : ∀ k : Fin 96, x3 (ix2 k (j 1)) = A3 (ix2 k (i 1)))
    (h4 : x4 (ix2 (0 : Fin 1) (j 1)) = A4 (ix2 (0 : Fin 1) (i 1))) :
    k1_pay1 (F := Ideal) x0 x1 x2 x3 x4 j = Cert.LibDense.relu (n := 50000) (K := 96) (d := 96) A0 A1 A2 A3 (rowVec A4) i :=
  (pay1_apply x0 x1 x2 x3 x4 j).trans
    (Cert.LibDense.relu_congr (n := 5000) (n' := 50000) (K := 96) (d := 96) x0 x1 A0 A1 x2 x3 A2 A3 (rowVec x4) (rowVec A4) j i h0 h1 h2 h3 h4)

theorem entry2 (A0 A1 : (⟨2, ![50000, 96]⟩ : Shape).Idx → EReal) (A2 A3 : (⟨2, ![96, 64]⟩ : Shape).Idx → EReal)
    (A4 : (⟨2, ![1, 64]⟩ : Shape).Idx → EReal)
    (x0 x1 : Vec Ideal S5000x96 .f32) (x2 x3 : Vec Ideal S96x64 .f32) (x4 : Vec Ideal S1x64 .f32)
    (j : S5000x64.Idx) (i : (⟨2, ![50000, 64]⟩ : Shape).Idx)
    (h0 : ∀ k : Fin 96, x0 (ix2 (j 0) k) = A0 (ix2 (i 0) k)) (h1 : ∀ k : Fin 96, x1 (ix2 (j 0) k) = A1 (ix2 (i 0) k))
    (h2 : ∀ k : Fin 96, x2 (ix2 k (j 1)) = A2 (ix2 k (i 1))) (h3 : ∀ k : Fin 96, x3 (ix2 k (j 1)) = A3 (ix2 k (i 1)))
    (h4 : x4 (ix2 (0 : Fin 1) (j 1)) = A4 (ix2 (0 : Fin 1) (i 1))) :
    k2_pay1 (F := Ideal) x0 x1 x2 x3 x4 j = Cert.LibDense.affine (n := 50000) (K := 96) (d := 64) A0 A1 A2 A3 (rowVec A4) i :=
  (pay2_apply x0 x1 x2 x3 x4 j).trans
    (Cert.LibDense.affine_congr (n := 5000) (n' := 50000) (K := 96) (d := 64) x0 x1 A0 A1 x2 x3 A2 A3 (rowVec x4) (rowVec A4) j i h0 h1 h2 h3 h4)

end Cert.KernelIdeal.Body

end
-- ==== Proof.KBlocks0.lean ====
/-
  Launch 0 of the idealized kernel, from its blocks to its result array, at any contents `V` of the buffers when the
  launch is entered.

  The grid has ten points. Point t reads rows 5000·t … 5000·t + 4999 of the node features and of the scaled
  neighbour sums, the two whole weight matrices and the whole bias row, and writes back rows 5000·t … 5000·t + 4999
  of the result. An entry of what it writes is the dense layer of the whole arrays at that row (the body at an
  entry, the block's row moved by 5000·t); the ten row bands tile the 50000 rows, so the result array ends holding
  the layer of the whole arrays, entry by entry.
-/
import proofs.«178199_j67130338837023_1_alg».proof.Proof.Gen.KernelIdeal.Frame
import proofs.«178199_j67130338837023_1_alg».proof.Proof.KBody
import Idealize.ShloMosaic.Lib.Pipeline.Value

set_option maxRecDepth 16384

noncomputable section

namespace Cert.KernelIdeal.Blocks0

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole arrays as the launch finds them. -/
def whole (c : Dev nD) : (⟨2, ![50000, 96]⟩ : Shape).Idx → EReal :=
  Cert.LibDense.relu (n := 50000) (K := 96) (d := 96) (V c main_arg0) (V c main_v20) (V c main_v21) (V c main_v22) (rowVec (V c main_v23))

/-- The printed index maps over the ten points: the row blocks and the result block sit at block row t, column
    block 0; the weights and the bias row at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- What point t writes back is block t of the layer of the whole arrays. -/
theorem flushed_eq (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zero_offsets]
  simp only [View.ld_unit_zero (S := S5000x96) zero_offsets, View.ld_unit_zero (S := S96x96) zero_offsets,
    View.ld_unit_zero (S := S1x96) zero_offsets]
  obtain ⟨e00, e01, e10, e11, e20, e21, e30, e31, e40, e41, e50, e51⟩ := index_facts t
  funext j
  show k0_pay1 (F := Ideal) (iblk0 V c 0 t) (iblk0 V c 1 t) (iblk0 V c 2 t) (iblk0 V c 3 t) (iblk0 V c 4 t) j
      = whole V c (((cfg0.win 5).blk t).view.emb j)
  have hj0 : (j 0).val < 5000 := (j 0).isLt
  have hj1 : (j 1).val < 96 := (j 1).isLt
  refine entry0 (V c main_arg0) (V c main_v20) (V c main_v21) (V c main_v22) (V c main_v23)
    (iblk0 V c 0 t) (iblk0 V c 1 t) (iblk0 V c 2 t) (iblk0 V c 3 t) (iblk0 V c 4 t) j
    (((cfg0.win 5).blk t).view.emb j) (fun k => ?_) (fun k => ?_) (fun k => ?_) (fun k => ?_) ?_
  · show V c main_arg0 (((cfg0.win 0).blk t).view.emb (ix2 (j 0) k)) = V c main_arg0 (ix2 ((((cfg0.win 5).blk t).view.emb j) 0) k)
    refine congrArg (V c main_arg0) (funext fun a => Fin.ext ?_)
    match a with
    | ⟨0, _⟩ => show win0_0.index t (0 : Fin 2) * 5000 + 1 * (j 0).val = win0_5.index t (0 : Fin 2) * 5000 + 1 * (j 0).val; omega
    | ⟨1, _⟩ => show win0_0.index t (1 : Fin 2) * 96 + 1 * k.val = k.val; omega
  · show V c main_v20 (((cfg0.win 1).blk t).view.emb (ix2 (j 0) k)) = V c main_v20 (ix2 ((((cfg0.win 5).blk t).view.emb j) 0) k)
    refine congrArg (V c main_v20) (funext fun a => Fin.ext ?_)
    match a with
    | ⟨0, _⟩ => show win0_1.index t (0 : Fin 2) * 5000 + 1 * (j 0).val = win0_5.index t (0 : Fin 2) * 5000 + 1 * (j 0).val; omega
    | ⟨1, _⟩ => show win0_1.index t (1 : Fin 2) * 96 + 1 * k.val = k.val; omega
  · show V c main_v21 (((cfg0.win 2).blk t).view.emb (ix2 k (j 1))) = V c main_v21 (ix2 k ((((cfg0.win 5).blk t).view.emb j) 1))
    refine congrArg (V c main_v21) (funext fun a => Fin.ext ?_)
    match a with
    | ⟨0, _⟩ => show win0_2.index t (0 : Fin 2) * 96 + 1 * k.val = k.val; omega
    | ⟨1, _⟩ => show win0_2.index t (1 : Fin 2) * 96 + 1 * (j 1).val = win0_5.index t (1 : Fin 2) * 96 + 1 * (j 1).val; omega
  · show V c main_v22 (((cfg0.win 3).blk t).view.emb (ix2 k (j 1))) = V c main_v22 (ix2 k ((((cfg0.win 5).blk t).view.emb j) 1))
    refine congrArg (V c main_v22) (funext fun a => Fin.ext ?_)
    match a with
    | ⟨0, _⟩ => show win0_3.index t (0 : Fin 2) * 96 + 1 * k.val = k.val; omega
    | ⟨1, _⟩ => show win0_3.index t (1 : Fin 2) * 96 + 1 * (j 1).val = win0_5.index t (1 : Fin 2) * 96 + 1 * (j 1).val; omega
  · show V c main_v23 (((cfg0.win 4).blk t).view.emb (ix2 (0 : Fin 1) (j 1))) = V c main_v23 (ix2 (0 : Fin 1) ((((cfg0.win 5).blk t).view.emb j) 1))
    refine congrArg (V c main_v23) (funext fun a => Fin.ext ?_)
    match a with
    | ⟨0, _⟩ => show win0_4.index t (0 : Fin 2) * 1 + 1 * 0 = 0; omega
    | ⟨1, _⟩ => show win0_4.index t (1 : Fin 2) * 96 + 1 * (j 1).val = win0_5.index t (1 : Fin 2) * 96 + 1 * (j 1).val; omega

/-- An index of the result array is in point t's block iff each coordinate is in the block's range on its axis. -/
theorem mem_block (t : Fin cfg0.N) (i : (⟨2, ![50000, 96]⟩ : Shape).Idx) :
    i ∈ ((cfg0.win 5).blk t).view.set ↔ ∀ a : Fin 2, win0_5.index t a * S5000x96.size a ≤ (i a).val ∧ (i a).val < win0_5.index t a * S5000x96.size a + S5000x96.size a := by
  show i ∈ ((View.whole main_v24).slice (win0_5.rect t)).set ↔ _
  rw [View.set_slice_whole, Rect.mem_set_unit]
  exact Iff.rfl

/-- The result array after the launch: the layer of the whole arrays as the launch finds them. -/
theorem final (c : Dev nD) : (dat0 V c).arrAt 5 cfg0.N = whole V c :=
  (dat0 V c).arrAt_eq_of_cover 5 (whole V c) (fun t _ => flushed_eq V c t) fun i => by
    have hN : cfg0.N = 10 := N_0
    have hi0 : (i 0).val < 50000 := (i 0).isLt
    have hi1 : (i 1).val < 96 := (i 1).isLt
    refine ⟨⟨(i 0).val / 5000, by rw [hN]; omega⟩, flush0_5 _, ?_⟩
    rw [mem_block]
    obtain ⟨-, -, -, -, -, -, -, -, -, -, e50, e51⟩ := index_facts ⟨(i 0).val / 5000, by rw [hN]; omega⟩
    intro a
    match a with
    | ⟨0, _⟩ =>
      show win0_5.index ⟨(i 0).val / 5000, _⟩ (0 : Fin 2) * 5000 ≤ (i 0).val ∧ (i 0).val < win0_5.index ⟨(i 0).val / 5000, _⟩ (0 : Fin 2) * 5000 + 5000
      rw [e50]; show (i 0).val / 5000 * 5000 ≤ (i 0).val ∧ (i 0).val < (i 0).val / 5000 * 5000 + 5000; omega
    | ⟨1, _⟩ =>
      show win0_5.index ⟨(i 0).val / 5000, _⟩ (1 : Fin 2) * 96 ≤ (i 1).val ∧ (i 1).val < win0_5.index ⟨(i 0).val / 5000, _⟩ (1 : Fin 2) * 96 + 96
      rw [e51]; omega

end Cert.KernelIdeal.Blocks0

end
-- ==== Proof.KBlocks1.lean ====
/-
  Launch 1 of the idealized kernel, from its blocks to its result array, at any contents `V` of the buffers when the
  launch is entered.

  The grid has ten points. Point t reads rows 5000·t … 5000·t + 4999 of the node features and of the scaled
  neighbour sums, the two whole weight matrices and the whole bias row, and writes back rows 5000·t … 5000·t + 4999
  of the result. An entry of what it writes is the dense layer of the whole arrays at that row (the body at an
  entry, the block's row moved by 5000·t); the ten row bands tile the 50000 rows, so the result array ends holding
  the layer of the whole arrays, entry by entry.
-/
import proofs.«178199_j67130338837023_1_alg».proof.Proof.Gen.KernelIdeal.Frame
import proofs.«178199_j67130338837023_1_alg».proof.Proof.KBody
import Idealize.ShloMosaic.Lib.Pipeline.Value

set_option maxRecDepth 16384

noncomputable section

namespace Cert.KernelIdeal.Blocks1

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole arrays as the launch finds them. -/
def whole (c : Dev nD) : (⟨2, ![50000, 96]⟩ : Shape).Idx → EReal :=
  Cert.LibDense.relu (n := 50000) (K := 96) (d := 96) (V c main_v24) (V c main_v37) (V c main_v38) (V c main_v39) (rowVec (V c main_v40))

/-- The printed index maps over the ten points: the row blocks and the result block sit at block row t, column
    block 0; the weights and the bias row at block (0, 0). -/
theorem index_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- What point t writes back is block t of the layer of the whole arrays. -/
theorem flushed_eq (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zero_offsets]
  simp only [View.ld_unit_zero (S := S5000x96) zero_offsets, View.ld_unit_zero (S := S96x96) zero_offsets,
    View.ld_unit_zero (S := S1x96) zero_offsets]
  obtain ⟨e00, e01, e10, e11, e20, e21, e30, e31, e40, e41, e50, e51⟩ := index_facts t
  funext j
  show k1_pay1 (F := Ideal) (iblk1 V c 0 t) (iblk1 V c 1 t) (iblk1 V c 2 t) (iblk1 V c 3 t) (iblk1 V c 4 t) j
      = whole V c (((cfg1.win 5).blk t).view.emb j)
  have hj0 : (j 0).val < 5000 := (j 0).isLt
  have hj1 : (j 1).val < 96 := (j 1).isLt
  refine entry1 (V c main_v24) (V c main_v37) (V c main_v38) (V c main_v39) (V c main_v40)
    (iblk1 V c 0 t) (iblk1 V c 1 t) (iblk1 V c 2 t) (iblk1 V c 3 t) (iblk1 V c 4 t) j
    (((cfg1.win 5).blk t).view.emb j) (fun k => ?_) (fun k => ?_) (fun k => ?_) (fun k => ?_) ?_
  · show V c main_v24 (((cfg1.win 0).blk t).view.emb (ix2 (j 0) k)) = V c main_v24 (ix2 ((((cfg1.win 5).blk t).view.emb j) 0) k)
    refine congrArg (V c main_v24) (funext fun a => Fin.ext ?_)
    match a with
    | ⟨0, _⟩ => show win1_0.index t (0 : Fin 2) * 5000 + 1 * (j 0).val = win1_5.index t (0 : Fin 2) * 5000 + 1 * (j 0).val; omega
    | ⟨1, _⟩ => show win1_0.index t (1 : Fin 2) * 96 + 1 * k.val = k.val; omega
  · show V c main_v37 (((cfg1.win 1).blk t).view.emb (ix2 (j 0) k)) = V c main_v37 (ix2 ((((cfg1.win 5).blk t).view.emb j) 0) k)
    refine congrArg (V c main_v37) (funext fun a => Fin.ext ?_)
    match a with
    | ⟨0, _⟩ => show win1_1.index t (0 : Fin 2) * 5000 + 1 * (j 0).val = win1_5.index t (0 : Fin 2) * 5000 + 1 * (j 0).val; omega
    | ⟨1, _⟩ => show win1_1.index t (1 : Fin 2) * 96 + 1 * k.val = k.val; omega
  · show V c main_v38 (((cfg1.win 2).blk t).view.emb (ix2 k (j 1))) = V c main_v38 (ix2 k ((((cfg1.win 5).blk t).view.emb j) 1))
    refine congrArg (V c main_v38) (funext fun a => Fin.ext ?_)
    match a with
    | ⟨0, _⟩ => show win1_2.index t (0 : Fin 2) * 96 + 1 * k.val = k.val; omega
    | ⟨1, _⟩ => show win1_2.index t (1 : Fin 2) * 96 + 1 * (j 1).val = win1_5.index t (1 : Fin 2) * 96 + 1 * (j 1).val; omega
  · show V c main_v39 (((cfg1.win 3).blk t).view.emb (ix2 k (j 1))) = V c main_v39 (ix2 k ((((cfg1.win 5).blk t).view.emb j) 1))
    refine congrArg (V c main_v39) (funext fun a => Fin.ext ?_)
    match a with
    | ⟨0, _⟩ => show win1_3.index t (0 : Fin 2) * 96 + 1 * k.val = k.val; omega
    | ⟨1, _⟩ => show win1_3.index t (1 : Fin 2) * 96 + 1 * (j 1).val = win1_5.index t (1 : Fin 2) * 96 + 1 * (j 1).val; omega
  · show V c main_v40 (((cfg1.win 4).blk t).view.emb (ix2 (0 : Fin 1) (j 1))) = V c main_v40 (ix2 (0 : Fin 1) ((((cfg1.win 5).blk t).view.emb j) 1))
    refine congrArg (V c main_v40) (funext fun a => Fin.ext ?_)
    match a with
    | ⟨0, _⟩ => show win1_4.index t (0 : Fin 2) * 1 + 1 * 0 = 0; omega
    | ⟨1, _⟩ => show win1_4.index t (1 : Fin 2) * 96 + 1 * (j 1).val = win1_5.index t (1 : Fin 2) * 96 + 1 * (j 1).val; omega

/-- An index of the result array is in point t's block iff each coordinate is in the block's range on its axis. -/
theorem mem_block (t : Fin cfg1.N) (i : (⟨2, ![50000, 96]⟩ : Shape).Idx) :
    i ∈ ((cfg1.win 5).blk t).view.set ↔ ∀ a : Fin 2, win1_5.index t a * S5000x96.size a ≤ (i a).val ∧ (i a).val < win1_5.index t a * S5000x96.size a + S5000x96.size a := by
  show i ∈ ((View.whole main_v41).slice (win1_5.rect t)).set ↔ _
  rw [View.set_slice_whole, Rect.mem_set_unit]
  exact Iff.rfl

/-- The result array after the launch: the layer of the whole arrays as the launch finds them. -/
theorem final (c : Dev nD) : (dat1 V c).arrAt 5 cfg1.N = whole V c :=
  (dat1 V c).arrAt_eq_of_cover 5 (whole V c) (fun t _ => flushed_eq V c t) fun i => by
    have hN : cfg1.N = 10 := N_1
    have hi0 : (i 0).val < 50000 := (i 0).isLt
    have hi1 : (i 1).val < 96 := (i 1).isLt
    refine ⟨⟨(i 0).val / 5000, by rw [hN]; omega⟩, flush1_5 _, ?_⟩
    rw [mem_block]
    obtain ⟨-, -, -, -, -, -, -, -, -, -, e50, e51⟩ := index_facts ⟨(i 0).val / 5000, by rw [hN]; omega⟩
    intro a
    match a with
    | ⟨0, _⟩ =>
      show win1_5.index ⟨(i 0).val / 5000, _⟩ (0 : Fin 2) * 5000 ≤ (i 0).val ∧ (i 0).val < win1_5.index ⟨(i 0).val / 5000, _⟩ (0 : Fin 2) * 5000 + 5000
      rw [e50]; show (i 0).val / 5000 * 5000 ≤ (i 0).val ∧ (i 0).val < (i 0).val / 5000 * 5000 + 5000; omega
    | ⟨1, _⟩ =>
      show win1_5.index ⟨(i 0).val / 5000, _⟩ (1 : Fin 2) * 96 ≤ (i 1).val ∧ (i 1).val < win1_5.index ⟨(i 0).val / 5000, _⟩ (1 : Fin 2) * 96 + 96
      rw [e51]; omega

end Cert.KernelIdeal.Blocks1

end
-- ==== Proof.KBlocks2.lean ====
/-
  Launch 2 of the idealized kernel, from its blocks to its result array, at any contents `V` of the buffers when the
  launch is entered.

  The grid has ten points. Point t reads rows 5000·t … 5000·t + 4999 of the node features and of the scaled
  neighbour sums, the two whole weight matrices and the whole bias row, and writes back rows 5000·t … 5000·t + 4999
  of the result. An entry of what it writes is the dense layer of the whole arrays at that row (the body at an
  entry, the block's row moved by 5000·t); the ten row bands tile the 50000 rows, so the result array ends holding
  the layer of the whole arrays, entry by entry.
-/
import proofs.«178199_j67130338837023_1_alg».proof.Proof.Gen.KernelIdeal.Frame
import proofs.«178199_j67130338837023_1_alg».proof.Proof.KBody
import Idealize.ShloMosaic.Lib.Pipeline.Value

set_option maxRecDepth 16384

noncomputable section

namespace Cert.KernelIdeal.Blocks2

open Cert.KernelIdeal Cert.KernelIdeal.Gen Cert.KernelIdeal.Body
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero_offsets : (![0, 0] : Fin 2 → Nat) = fun _ => 0 := funext fun a => by fin_cases a <;> rfl

/-- The layer of the whole arrays as the launch finds them. -/
def whole (c : Dev nD) : (⟨2, ![50000, 64]⟩ : Shape).Idx → EReal :=
  Cert.LibDense.affine (n := 50000) (K := 96) (d := 64) (V c main_v41) (V c main_v54) (V c main_v55) (V c main_v56) (rowVec (V c main_v57))

/-- The printed index maps over the ten points: the row blocks and the result block sit at block row t, column
    block 0; the weights and the bias row at block (0, 0). -/
theorem index_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- What point t writes back is block t of the layer of the whole arrays. -/
theorem flushed_eq (c : Dev nD) (t : Fin cfg2.N) :
    (dat2 V c).flushed 5 t = ((cfg2.win 5).blk t).view.read (Elt Ideal) (whole V c) := by
  show (cfg2.win 5).cut (grid2.coords t) ((dat2 V c).after 5 t) = _
  rw [after2_5]
  unfold out2_5
  rw [View.canon_unit_zero zero_offsets]
  simp only [View.ld_unit_zero (S := S5000x96) zero_offsets, View.ld_unit_zero (S := S96x64) zero_offsets,
    View.ld_unit_zero (S := S1x64) zero_offsets]
  obtain ⟨e00, e01, e10, e11, e20, e21, e30, e31, e40, e41, e50, e51⟩ := index_facts t
  funext j
  show k2_pay1 (F := Ideal) (iblk2 V c 0 t) (iblk2 V c 1 t) (iblk2 V c 2 t) (iblk2 V c 3 t) (iblk2 V c 4 t) j
      = whole V c (((cfg2.win 5).blk t).view.emb j)
  have hj0 : (j 0).val < 5000 := (j 0).isLt
  have hj1 : (j 1).val < 64 := (j 1).isLt
  refine entry2 (V c main_v41) (V c main_v54) (V c main_v55) (V c main_v56) (V c main_v57)
    (iblk2 V c 0 t) (iblk2 V c 1 t) (iblk2 V c 2 t) (iblk2 V c 3 t) (iblk2 V c 4 t) j
    (((cfg2.win 5).blk t).view.emb j) (fun k => ?_) (fun k => ?_) (fun k => ?_) (fun k => ?_) ?_
  · show V c main_v41 (((cfg2.win 0).blk t).view.emb (ix2 (j 0) k)) = V c main_v41 (ix2 ((((cfg2.win 5).blk t).view.emb j) 0) k)
    refine congrArg (V c main_v41) (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 96 + 1 * k.val = k.val; omega
  · show V c main_v54 (((cfg2.win 1).blk t).view.emb (ix2 (j 0) k)) = V c main_v54 (ix2 ((((cfg2.win 5).blk t).view.emb j) 0) k)
    refine congrArg (V c main_v54) (funext fun a => Fin.ext ?_)
    match a with
    | ⟨0, _⟩ => show win2_1.index t (0 : Fin 2) * 5000 + 1 * (j 0).val = win2_5.index t (0 : Fin 2) * 5000 + 1 * (j 0).val; omega
    | ⟨1, _⟩ => show win2_1.index t (1 : Fin 2) * 96 + 1 * k.val = k.val; omega
  · show V c main_v55 (((cfg2.win 2).blk t).view.emb (ix2 k (j 1))) = V c main_v55 (ix2 k ((((cfg2.win 5).blk t).view.emb j) 1))
    refine congrArg (V c main_v55) (funext fun a => Fin.ext ?_)
    match a with
    | ⟨0, _⟩ => show win2_2.index t (0 : Fin 2) * 96 + 1 * k.val = k.val; omega
    | ⟨1, _⟩ => show win2_2.index t (1 : Fin 2) * 64 + 1 * (j 1).val = win2_5.index t (1 : Fin 2) * 64 + 1 * (j 1).val; omega
  · show V c main_v56 (((cfg2.win 3).blk t).view.emb (ix2 k (j 1))) = V c main_v56 (ix2 k ((((cfg2.win 5).blk t).view.emb j) 1))
    refine congrArg (V c main_v56) (funext fun a => Fin.ext ?_)
    match a with
    | ⟨0, _⟩ => show win2_3.index t (0 : Fin 2) * 96 + 1 * k.val = k.val; omega
    | ⟨1, _⟩ => show win2_3.index t (1 : Fin 2) * 64 + 1 * (j 1).val = win2_5.index t (1 : Fin 2) * 64 + 1 * (j 1).val; omega
  · show V c main_v57 (((cfg2.win 4).blk t).view.emb (ix2 (0 : Fin 1) (j 1))) = V c main_v57 (ix2 (0 : Fin 1) ((((cfg2.win 5).blk t).view.emb j) 1))
    refine congrArg (V c main_v57) (funext fun a => Fin.ext ?_)
    match a with
    | ⟨0, _⟩ => show win2_4.index t (0 : Fin 2) * 1 + 1 * 0 = 0; omega
    | ⟨1, _⟩ => show win2_4.index t (1 : Fin 2) * 64 + 1 * (j 1).val = win2_5.index t (1 : Fin 2) * 64 + 1 * (j 1).val; omega

/-- An index of the result array is in point t's block iff each coordinate is in the block's range on its axis. -/
theorem mem_block (t : Fin cfg2.N) (i : (⟨2, ![50000, 64]⟩ : Shape).Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v58).slice (win2_5.rect t)).set ↔ _
  rw [View.set_slice_whole, Rect.mem_set_unit]
  exact Iff.rfl

/-- The result array after the launch: the layer of the whole arrays as the launch finds them. -/
theorem final (c : Dev nD) : (dat2 V c).arrAt 5 cfg2.N = whole V c :=
  (dat2 V c).arrAt_eq_of_cover 5 (whole V c) (fun t _ => flushed_eq V c t) fun i => by
    have hN : cfg2.N = 10 := N_2
    have hi0 : (i 0).val < 50000 := (i 0).isLt
    have hi1 : (i 1).val < 64 := (i 1).isLt
    refine ⟨⟨(i 0).val / 5000, by rw [hN]; omega⟩, flush2_5 _, ?_⟩
    rw [mem_block]
    obtain ⟨-, -, -, -, -, -, -, -, -, -, e50, e51⟩ := index_facts ⟨(i 0).val / 5000, by rw [hN]; omega⟩
    intro a
    match a with
    | ⟨0, _⟩ =>
      show win2_5.index ⟨(i 0).val / 5000, _⟩ (0 : Fin 2) * 5000 ≤ (i 0).val ∧ (i 0).val < win2_5.index ⟨(i 0).val / 5000, _⟩ (0 : Fin 2) * 5000 + 5000
      rw [e50]; show (i 0).val / 5000 * 5000 ≤ (i 0).val ∧ (i 0).val < (i 0).val / 5000 * 5000 + 5000; omega
    | ⟨1, _⟩ =>
      show win2_5.index ⟨(i 0).val / 5000, _⟩ (1 : Fin 2) * 64 ≤ (i 1).val ∧ (i 1).val < win2_5.index ⟨(i 0).val / 5000, _⟩ (1 : Fin 2) * 64 + 64
      rw [e51]; omega

end Cert.KernelIdeal.Blocks2

end
-- ==== Proof.KHost.lean ====
/-
  The idealized kernel's run read back: what each boundary of the run holds at the buffers the launches read, and the
  three layers composed.

  The run is: host operations, launch 0, host operations, launch 1, host operations, launch 2. A host stretch writes
  the scaled neighbour sum of the current features, the transposed weights and the bias row, and leaves every other
  buffer alone; a launch writes its result array (the layer of the five arrays it reads, as it finds them) and leaves
  every other buffer alone. The reciprocal of the floored in-degree is written once, before launch 0, and read again
  before launches 1 and 2; the edge lists and the weights are arguments, written by nobody. Walking the boundaries
  from the launch memory forward gives the result buffer as three nested layers of the arguments.
-/
import proofs.«178199_j67130338837023_1_alg».proof.Proof.Gen.KernelIdeal.Frame
import proofs.«178199_j67130338837023_1_alg».proof.Proof.KStages
import proofs.«178199_j67130338837023_1_alg».proof.Proof.KBlocks0
import proofs.«178199_j67130338837023_1_alg».proof.Proof.KBlocks1
import proofs.«178199_j67130338837023_1_alg».proof.Proof.KBlocks2
import Idealize.ShloMosaic.Lib.StableHlo.Run

set_option maxRecDepth 16384

noncomputable section

namespace Cert.KernelIdeal.HostRead

open Cert.KernelIdeal Cert.KernelIdeal.Gen Cert.KernelIdeal.Body Cert.KernelIdeal.Stages
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## Before launch 0 -/

theorem s0_arg0 : W1 m ρ c (Proc.devRef .tc main_arg0) = m ((c : Thread nD τ).loc main_arg0) := by
  show StableHlo.after hostOps0 (W0 m ρ c) (Proc.devRef .tc main_arg0) = _
  after_results_simp <;> rfl
theorem s0_v20 : W1 m ρ c (Proc.devRef .tc main_v20) = scaleRows (neighbourSum (m ((c : Thread nD τ).loc main_arg0)) (m ((c : Thread nD τ).loc main_arg1)) (m ((c : Thread nD τ).loc main_arg2))) (recip (m ((c : Thread nD τ).loc main_arg2))) := by
  show StableHlo.after hostOps0 (W0 m ρ c) (Proc.devRef .tc main_v20) = _
  after_results_simp <;> rfl
theorem s0_v21 : W1 m ρ c (Proc.devRef .tc main_v21) = transposed96 (m ((c : Thread nD τ).loc main_arg3)) := by
  show StableHlo.after hostOps0 (W0 m ρ c) (Proc.devRef .tc main_v21) = _
  after_results_simp <;> rfl
theorem s0_v22 : W1 m ρ c (Proc.devRef .tc main_v22) = transposed96 (m ((c : Thread nD τ).loc main_arg4)) := by
  show StableHlo.after hostOps0 (W0 m ρ c) (Proc.devRef .tc main_v22) = _
  after_results_simp <;> rfl
theorem s0_v23 : W1 m ρ c (Proc.devRef .tc main_v23) = biasRow96 (m ((c : Thread nD τ).loc main_arg5)) := by
  show StableHlo.after hostOps0 (W0 m ρ c) (Proc.devRef .tc main_v23) = _
  after_results_simp <;> rfl
theorem s0_v7 : W1 m ρ c (Proc.devRef .tc main_v7) = recip (m ((c : Thread nD τ).loc main_arg2)) := by
  show StableHlo.after hostOps0 (W0 m ρ c) (Proc.devRef .tc main_v7) = _
  after_results_simp <;> rfl
theorem s0_arg1 : W1 m ρ c (Proc.devRef .tc main_arg1) = m ((c : Thread nD τ).loc main_arg1) := by
  show StableHlo.after hostOps0 (W0 m ρ c) (Proc.devRef .tc main_arg1) = _
  after_results_simp <;> rfl
theorem s0_arg2 : W1 m ρ c (Proc.devRef .tc main_arg2) = m ((c : Thread nD τ).loc main_arg2) := by
  show StableHlo.after hostOps0 (W0 m ρ c) (Proc.devRef .tc main_arg2) = _
  after_results_simp <;> rfl
theorem s0_arg6 : W1 m ρ c (Proc.devRef .tc main_arg6) = m ((c : Thread nD τ).loc main_arg6) := by
  show StableHlo.after hostOps0 (W0 m ρ c) (Proc.devRef .tc main_arg6) = _
  after_results_simp <;> rfl
theorem s0_arg7 : W1 m ρ c (Proc.devRef .tc main_arg7) = m ((c : Thread nD τ).loc main_arg7) := by
  show StableHlo.after hostOps0 (W0 m ρ c) (Proc.devRef .tc main_arg7) = _
  after_results_simp <;> rfl
theorem s0_arg8 : W1 m ρ c (Proc.devRef .tc main_arg8) = m ((c : Thread nD τ).loc main_arg8) := by
  show StableHlo.after hostOps0 (W0 m ρ c) (Proc.devRef .tc main_arg8) = _
  after_results_simp <;> rfl
theorem s0_arg9 : W1 m ρ c (Proc.devRef .tc main_arg9) = m ((c : Thread nD τ).loc main_arg9) := by
  show StableHlo.after hostOps0 (W0 m ρ c) (Proc.devRef .tc main_arg9) = _
  after_results_simp <;> rfl
theorem s0_arg10 : W1 m ρ c (Proc.devRef .tc main_arg10) = m ((c : Thread nD τ).loc main_arg10) := by
  show StableHlo.after hostOps0 (W0 m ρ c) (Proc.devRef .tc main_arg10) = _
  after_results_simp <;> rfl
theorem s0_arg11 : W1 m ρ c (Proc.devRef .tc main_arg11) = m ((c : Thread nD τ).loc main_arg11) := by
  show StableHlo.after hostOps0 (W0 m ρ c) (Proc.devRef .tc main_arg11) = _
  after_results_simp <;> rfl

/-! ## Across launch 0 -/

theorem b2_v24 : W2 m ρ c (Proc.devRef .tc main_v24) = Cert.KernelIdeal.Blocks0.whole (V1 m ρ) c :=
  (W2_arr m ρ c 5).trans (Cert.KernelIdeal.Blocks0.final (V1 m ρ) c)
theorem b2_v7 : W2 m ρ c (Proc.devRef .tc main_v7) = W1 m ρ c (Proc.devRef .tc main_v7) := W2_of_ne m ρ c main_v7 (by decide)
theorem b2_arg1 : W2 m ρ c (Proc.devRef .tc main_arg1) = W1 m ρ c (Proc.devRef .tc main_arg1) := W2_of_ne m ρ c main_arg1 (by decide)
theorem b2_arg2 : W2 m ρ c (Proc.devRef .tc main_arg2) = W1 m ρ c (Proc.devRef .tc main_arg2) := W2_of_ne m ρ c main_arg2 (by decide)
theorem b2_arg6 : W2 m ρ c (Proc.devRef .tc main_arg6) = W1 m ρ c (Proc.devRef .tc main_arg6) := W2_of_ne m ρ c main_arg6 (by decide)
theorem b2_arg7 : W2 m ρ c (Proc.devRef .tc main_arg7) = W1 m ρ c (Proc.devRef .tc main_arg7) := W2_of_ne m ρ c main_arg7 (by decide)
theorem b2_arg8 : W2 m ρ c (Proc.devRef .tc main_arg8) = W1 m ρ c (Proc.devRef .tc main_arg8) := W2_of_ne m ρ c main_arg8 (by decide)
theorem b2_arg9 : W2 m ρ c (Proc.devRef .tc main_arg9) = W1 m ρ c (Proc.devRef .tc main_arg9) := W2_of_ne m ρ c main_arg9 (by decide)
theorem b2_arg10 : W2 m ρ c (Proc.devRef .tc main_arg10) = W1 m ρ c (Proc.devRef .tc main_arg10) := W2_of_ne m ρ c main_arg10 (by decide)
theorem b2_arg11 : W2 m ρ c (Proc.devRef .tc main_arg11) = W1 m ρ c (Proc.devRef .tc main_arg11) := W2_of_ne m ρ c main_arg11 (by decide)

theorem k2_v7 : W2 m ρ c (Proc.devRef .tc main_v7) = recip (m ((c : Thread nD τ).loc main_arg2)) := (b2_v7 m ρ c).trans (s0_v7 m ρ c)
theorem k2_arg1 : W2 m ρ c (Proc.devRef .tc main_arg1) = m ((c : Thread nD τ).loc main_arg1) := (b2_arg1 m ρ c).trans (s0_arg1 m ρ c)
theorem k2_arg2 : W2 m ρ c (Proc.devRef .tc main_arg2) = m ((c : Thread nD τ).loc main_arg2) := (b2_arg2 m ρ c).trans (s0_arg2 m ρ c)
theorem k2_arg6 : W2 m ρ c (Proc.devRef .tc main_arg6) = m ((c : Thread nD τ).loc main_arg6) := (b2_arg6 m ρ c).trans (s0_arg6 m ρ c)
theorem k2_arg7 : W2 m ρ c (Proc.devRef .tc main_arg7) = m ((c : Thread nD τ).loc main_arg7) := (b2_arg7 m ρ c).trans (s0_arg7 m ρ c)
theorem k2_arg8 : W2 m ρ c (Proc.devRef .tc main_arg8) = m ((c : Thread nD τ).loc main_arg8) := (b2_arg8 m ρ c).trans (s0_arg8 m ρ c)
theorem k2_arg9 : W2 m ρ c (Proc.devRef .tc main_arg9) = m ((c : Thread nD τ).loc main_arg9) := (b2_arg9 m ρ c).trans (s0_arg9 m ρ c)
theorem k2_arg10 : W2 m ρ c (Proc.devRef .tc main_arg10) = m ((c : Thread nD τ).loc main_arg10) := (b2_arg10 m ρ c).trans (s0_arg10 m ρ c)
theorem k2_arg11 : W2 m ρ c (Proc.devRef .tc main_arg11) = m ((c : Thread nD τ).loc main_arg11) := (b2_arg11 m ρ c).trans (s0_arg11 m ρ c)

/-! ## Before launch 1 -/

theorem s1_v24 : W3 m ρ c (Proc.devRef .tc main_v24) = W2 m ρ c (Proc.devRef .tc main_v24) := by
  show StableHlo.after hostOps1 (W2 m ρ c) (Proc.devRef .tc main_v24) = _
  after_results_simp <;> rfl
theorem s1_v37 : W3 m ρ c (Proc.devRef .tc main_v37) = scaleRows (neighbourSum (W2 m ρ c (Proc.devRef .tc main_v24)) (W2 m ρ c (Proc.devRef .tc main_arg1)) (W2 m ρ c (Proc.devRef .tc main_arg2))) (W2 m ρ c (Proc.devRef .tc main_v7)) := by
  show StableHlo.after hostOps1 (W2 m ρ c) (Proc.devRef .tc main_v37) = _
  after_results_simp <;> rfl
theorem s1_v38 : W3 m ρ c (Proc.devRef .tc main_v38) = transposed96 (W2 m ρ c (Proc.devRef .tc main_arg6)) := by
  show StableHlo.after hostOps1 (W2 m ρ c) (Proc.devRef .tc main_v38) = _
  after_results_simp <;> rfl
theorem s1_v39 : W3 m ρ c (Proc.devRef .tc main_v39) = transposed96 (W2 m ρ c (Proc.devRef .tc main_arg7)) := by
  show StableHlo.after hostOps1 (W2 m ρ c) (Proc.devRef .tc main_v39) = _
  after_results_simp <;> rfl
theorem s1_v40 : W3 m ρ c (Proc.devRef .tc main_v40) = biasRow96 (W2 m ρ c (Proc.devRef .tc main_arg8)) := by
  show StableHlo.after hostOps1 (W2 m ρ c) (Proc.devRef .tc main_v40) = _
  after_results_simp <;> rfl
theorem s1_v7 : W3 m ρ c (Proc.devRef .tc main_v7) = W2 m ρ c (Proc.devRef .tc main_v7) := by
  show StableHlo.after hostOps1 (W2 m ρ c) (Proc.devRef .tc main_v7) = _
  after_results_simp <;> rfl
theorem s1_arg1 : W3 m ρ c (Proc.devRef .tc main_arg1) = W2 m ρ c (Proc.devRef .tc main_arg1) := by
  show StableHlo.after hostOps1 (W2 m ρ c) (Proc.devRef .tc main_arg1) = _
  after_results_simp <;> rfl
theorem s1_arg2 : W3 m ρ c (Proc.devRef .tc main_arg2) = W2 m ρ c (Proc.devRef .tc main_arg2) := by
  show StableHlo.after hostOps1 (W2 m ρ c) (Proc.devRef .tc main_arg2) = _
  after_results_simp <;> rfl
theorem s1_arg9 : W3 m ρ c (Proc.devRef .tc main_arg9) = W2 m ρ c (Proc.devRef .tc main_arg9) := by
  show StableHlo.after hostOps1 (W2 m ρ c) (Proc.devRef .tc main_arg9) = _
  after_results_simp <;> rfl
theorem s1_arg10 : W3 m ρ c (Proc.devRef .tc main_arg10) = W2 m ρ c (Proc.devRef .tc main_arg10) := by
  show StableHlo.after hostOps1 (W2 m ρ c) (Proc.devRef .tc main_arg10) = _
  after_results_simp <;> rfl
theorem s1_arg11 : W3 m ρ c (Proc.devRef .tc main_arg11) = W2 m ρ c (Proc.devRef .tc main_arg11) := by
  show StableHlo.after hostOps1 (W2 m ρ c) (Proc.devRef .tc main_arg11) = _
  after_results_simp <;> rfl

/-! ## Across launch 1 -/

theorem b4_v41 : W4 m ρ c (Proc.devRef .tc main_v41) = Cert.KernelIdeal.Blocks1.whole (V3 m ρ) c :=
  (W4_arr m ρ c 5).trans (Cert.KernelIdeal.Blocks1.final (V3 m ρ) c)
theorem b4_v7 : W4 m ρ c (Proc.devRef .tc main_v7) = W3 m ρ c (Proc.devRef .tc main_v7) := W4_of_ne m ρ c main_v7 (by decide)
theorem b4_arg1 : W4 m ρ c (Proc.devRef .tc main_arg1) = W3 m ρ c (Proc.devRef .tc main_arg1) := W4_of_ne m ρ c main_arg1 (by decide)
theorem b4_arg2 : W4 m ρ c (Proc.devRef .tc main_arg2) = W3 m ρ c (Proc.devRef .tc main_arg2) := W4_of_ne m ρ c main_arg2 (by decide)
theorem b4_arg9 : W4 m ρ c (Proc.devRef .tc main_arg9) = W3 m ρ c (Proc.devRef .tc main_arg9) := W4_of_ne m ρ c main_arg9 (by decide)
theorem b4_arg10 : W4 m ρ c (Proc.devRef .tc main_arg10) = W3 m ρ c (Proc.devRef .tc main_arg10) := W4_of_ne m ρ c main_arg10 (by decide)
theorem b4_arg11 : W4 m ρ c (Proc.devRef .tc main_arg11) = W3 m ρ c (Proc.devRef .tc main_arg11) := W4_of_ne m ρ c main_arg11 (by decide)

theorem k4_v7 : W4 m ρ c (Proc.devRef .tc main_v7) = recip (m ((c : Thread nD τ).loc main_arg2)) := (b4_v7 m ρ c).trans ((s1_v7 m ρ c).trans (k2_v7 m ρ c))
theorem k4_arg1 : W4 m ρ c (Proc.devRef .tc main_arg1) = m ((c : Thread nD τ).loc main_arg1) := (b4_arg1 m ρ c).trans ((s1_arg1 m ρ c).trans (k2_arg1 m ρ c))
theorem k4_arg2 : W4 m ρ c (Proc.devRef .tc main_arg2) = m ((c : Thread nD τ).loc main_arg2) := (b4_arg2 m ρ c).trans ((s1_arg2 m ρ c).trans (k2_arg2 m ρ c))
theorem k4_arg9 : W4 m ρ c (Proc.devRef .tc main_arg9) = m ((c : Thread nD τ).loc main_arg9) := (b4_arg9 m ρ c).trans ((s1_arg9 m ρ c).trans (k2_arg9 m ρ c))
theorem k4_arg10 : W4 m ρ c (Proc.devRef .tc main_arg10) = m ((c : Thread nD τ).loc main_arg10) := (b4_arg10 m ρ c).trans ((s1_arg10 m ρ c).trans (k2_arg10 m ρ c))
theorem k4_arg11 : W4 m ρ c (Proc.devRef .tc main_arg11) = m ((c : Thread nD τ).loc main_arg11) := (b4_arg11 m ρ c).trans ((s1_arg11 m ρ c).trans (k2_arg11 m ρ c))

/-! ## Before launch 2 -/

theorem s2_v41 : W5 m ρ c (Proc.devRef .tc main_v41) = W4 m ρ c (Proc.devRef .tc main_v41) := by
  show StableHlo.after hostOps2 (W4 m ρ c) (Proc.devRef .tc main_v41) = _
  after_results_simp <;> rfl
theorem s2_v54 : W5 m ρ c (Proc.devRef .tc main_v54) = scaleRows (neighbourSum (W4 m ρ c (Proc.devRef .tc main_v41)) (W4 m ρ c (Proc.devRef .tc main_arg1)) (W4 m ρ c (Proc.devRef .tc main_arg2))) (W4 m ρ c (Proc.devRef .tc main_v7)) := by
  show StableHlo.after hostOps2 (W4 m ρ c) (Proc.devRef .tc main_v54) = _
  after_results_simp <;> rfl
theorem s2_v55 : W5 m ρ c (Proc.devRef .tc main_v55) = transposed64 (W4 m ρ c (Proc.devRef .tc main_arg9)) := by
  show StableHlo.after hostOps2 (W4 m ρ c) (Proc.devRef .tc main_v55) = _
  after_results_simp <;> rfl
theorem s2_v56 : W5 m ρ c (Proc.devRef .tc main_v56) = transposed64 (W4 m ρ c (Proc.devRef .tc main_arg10)) := by
  show StableHlo.after hostOps2 (W4 m ρ c) (Proc.devRef .tc main_v56) = _
  after_results_simp <;> rfl
theorem s2_v57 : W5 m ρ c (Proc.devRef .tc main_v57) = biasRow64 (W4 m ρ c (Proc.devRef .tc main_arg11)) := by
  show StableHlo.after hostOps2 (W4 m ρ c) (Proc.devRef .tc main_v57) = _
  after_results_simp <;> rfl

/-! ## Across launch 2 -/

theorem b6_v58 : W6 m ρ c (Proc.devRef .tc main_v58) = Cert.KernelIdeal.Blocks2.whole (V5 m ρ) c :=
  (W6_arr m ρ c 5).trans (Cert.KernelIdeal.Blocks2.final (V5 m ρ) c)

end Cert.KernelIdeal.HostRead

end
-- ==== Proof.LibDotNT.lean ====
/-
  The matrix product whose right operand is contracted along its rows, on the extended reals, index by index.

  For a left operand `a : [M, K]` and a right operand `w : [N, K]` the entry (r, j) of `a · wᵀ` is the finite sum
  `∑ k, a (r, k) * w (j, k)`: row r of `a` against row j of `w`. A finite sum on the extended reals is a sum in a
  commutative monoid, so no order, grouping or tiling of it matters, and nothing here asks any entry to be finite.
  Both the vector unit's matrix product into a zero accumulator and the host's dot_general, with these dimension
  numbers, are this sum; a layer adds one bias entry per column, and two layers compose.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDotNT

open Idealize.ShloMosaic Idealize.ShloMosaic.ValueIdx

/-- Entry (r, j) of `a · wᵀ`: row r of `a : [M, K]` against row j of `w : [N, K]`. -/
def rowDot {M K N : ℕ} (a : (⟨2, ![M, K]⟩ : Shape).Idx → EReal) (w : (⟨2, ![N, K]⟩ : Shape).Idx → EReal) :
    (⟨2, ![M, N]⟩ : Shape).Idx → EReal :=
  fun i => ∑ k : Fin K, a (ix2 (i 0) k) * w (ix2 (i 1) k)

/-- The same at an index given by its coordinates. -/
theorem rowDot_ix2 {M K N : ℕ} (a : (⟨2, ![M, K]⟩ : Shape).Idx → EReal) (w : (⟨2, ![N, K]⟩ : Shape).Idx → EReal)
    (r : Fin M) (j : Fin N) : rowDot a w (ix2 r j) = ∑ k : Fin K, a (ix2 r k) * w (ix2 j k) := rfl

/-- An entry of the product reads one row of each operand: operands that agree on those rows give the same entry. -/
theorem rowDot_congr {M M' K N N' : ℕ} (a : (⟨2, ![M, K]⟩ : Shape).Idx → EReal) (w : (⟨2, ![N, K]⟩ : Shape).Idx → EReal)
    (a' : (⟨2, ![M', K]⟩ : Shape).Idx → EReal) (w' : (⟨2, ![N', K]⟩ : Shape).Idx → EReal)
    (r : Fin M) (j : Fin N) (r' : Fin M') (j' : Fin N')
    (ha : ∀ k : Fin K, a (ix2 r k) = a' (ix2 r' k)) (hw : ∀ k : Fin K, w (ix2 j k) = w' (ix2 j' k)) :
    rowDot a w (ix2 r j) = rowDot a' w' (ix2 r' j') := by
  rw [rowDot_ix2, rowDot_ix2]
  exact Finset.sum_congr rfl fun k _ => congrArg₂ (· * ·) (ha k) (hw k)

/-! ## The contraction index of an `[M, K] × [N, K]` product is `Fin K` -/

theorem tr_lhs0 (M K N : ℕ) (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

theorem tr_rhs0 (M K N : ℕ) (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The sum over the product's contraction index, re-indexed by `Fin K`, is the row-against-row sum. -/
theorem tr_sum (M K N : ℕ) (x : (⟨2, ![M, K]⟩ : Shape).Idx → EReal) (w : (⟨2, ![N, K]⟩ : Shape).Idx → EReal)
    (i : (⟨2, ![M, N]⟩ : Shape).Idx) :
    ∑ q : (DotDims.transposedRhs M K N).contr.Idx,
        x ((DotDims.transposedRhs M K N).lhsIdx i q) * w ((DotDims.transposedRhs M K N).rhsIdx i q)
      = rowDot x w i := by
  unfold rowDot
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx i ((contrEquiv1 (DotDims.transposedRhs M K N) K rfl rfl).symm k)
      = ix2 (i 0) k :=
    funext fun a => Fin.ext (by
      match a with
      | ⟨0, _⟩ => exact tr_lhs0 M K N i _
      | ⟨1, _⟩ => exact ((DotDims.transposedRhs M K N).lhsIdx_val_of_single rfl i _).trans hk)
  have er : (DotDims.transposedRhs M K N).rhsIdx i ((contrEquiv1 (DotDims.transposedRhs M K N) K rfl rfl).symm k)
      = ix2 (i 1) k :=
    funext fun a => Fin.ext (by
      match a with
      | ⟨0, _⟩ => exact tr_rhs0 M K N i _
      | ⟨1, _⟩ => exact ((DotDims.transposedRhs M K N).rhsIdx_val_of_single rfl i _).trans hk)
  exact congrArg₂ (· * ·) (congrArg x el) (congrArg w er)

/-- A vector unit's matrix product with these dimension numbers into the zero accumulator, at an entry. -/
theorem matmul_tr {M K N : ℕ} {φ₁ φ₂ : FTy} (x : FVec Ideal ⟨2, ![M, K]⟩ φ₁) (w : FVec Ideal ⟨2, ![N, K]⟩ φ₂)
    (i : (⟨2, ![M, N]⟩ : Shape).Idx) :
    FloatOps.matmul (DotDims.transposedRhs M K N) none x w (constant (F := Ideal) ⟨2, ![M, N]⟩ .f32 0x00000000#32) i
      = rowDot x w i := by
  rw [Ideal.matmul_constant_zero_apply]
  exact tr_sum M K N x w i

/-- The host's dot_general of the same dimension numbers, at an entry. -/
theorem dotGeneral_tr {M K N : ℕ} (sched : HostSchedule) (x : (⟨2, ![M, K]⟩ : Shape).Idx → EReal)
    (w : (⟨2, ![N, K]⟩ : Shape).Idx → EReal) (i : (⟨2, ![M, N]⟩ : Shape).Idx) :
    FloatOps.dotGeneral (F := Ideal) (φ₁ := .f32) (φ₂ := .f32) (DotDims.transposedRhs M K N) none sched x w i
      = rowDot x w i := by
  rw [Ideal.dotGeneral_apply]
  exact tr_sum M K N x w i

/-! ## A layer, and two of them -/

/-- A layer `a · wᵀ + b`: the bias entry of column j added to every row's entry in that column. -/
def layer {M K N : ℕ} (a : (⟨2, ![M, K]⟩ : Shape).Idx → EReal) (w : (⟨2, ![N, K]⟩ : Shape).Idx → EReal)
    (b : (⟨1, ![N]⟩ : Shape).Idx → EReal) : (⟨2, ![M, N]⟩ : Shape).Idx → EReal :=
  fun i => rowDot a w i + b (ix1 (i 1))

theorem layer_ix2 {M K N : ℕ} (a : (⟨2, ![M, K]⟩ : Shape).Idx → EReal) (w : (⟨2, ![N, K]⟩ : Shape).Idx → EReal)
    (b : (⟨1, ![N]⟩ : Shape).Idx → EReal) (r : Fin M) (j : Fin N) :
    layer a w b (ix2 r j) = (∑ k : Fin K, a (ix2 r k) * w (ix2 j k)) + b (ix1 j) := rfl

/-- Two layers with no function between them: `(x · w₁ᵀ + b₁) · w₂ᵀ + b₂`. -/
def twoLayers {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) : (⟨2, ![B, M]⟩ : Shape).Idx → EReal :=
  layer (layer x w1 b1) w2 b2

/-- Entry (r, j) of two layers, written out: it reads row r of `x`, all of `w₁` and `b₁`, row j of `w₂` and entry j of `b₂`. -/
theorem twoLayers_ix2 {B M K : ℕ} (x : (⟨2, ![B, M]⟩ : Shape).Idx → EReal) (w1 : (⟨2, ![K, M]⟩ : Shape).Idx → EReal)
    (b1 : (⟨1, ![K]⟩ : Shape).Idx → EReal) (w2 : (⟨2, ![M, K]⟩ : Shape).Idx → EReal)
    (b2 : (⟨1, ![M]⟩ : Shape).Idx → EReal) (r : Fin B) (j : Fin M) :
    twoLayers x w1 b1 w2 b2 (ix2 r j)
      = (∑ k : Fin K, ((∑ l : Fin M, x (ix2 r l) * w1 (ix2 k l)) + b1 (ix1 k)) * w2 (ix2 j k)) + b2 (ix1 j) := rfl

end Cert.LibDotNT

end
-- ==== Proof.LibMeanConv.lean ====
/-
  One layer of a graph convolution with mean aggregation, on the extended reals, index by index.

  For node features `h : [n, d]`, the sum `A : [n, d]` of each node's in-neighbours' features, a per-node
  divisor `q : [n]`, weights `wl wr : [e, d]` and a bias `b : [e]`, the layer's entry (r, j) is
      max ( (∑ k, (A (r, k) / q r) * wl (j, k)) + b j + ∑ k, h (r, k) * wr (j, k) ,  z )
  with `z` the floor of the clamp. Written with the reciprocal taken first, `A (r, k) * (1 / q r)`, and with the
  three summands in another order, it is the same number: dividing by `y ≠ 0` IS multiplying by `y⁻¹` on the
  extended reals, infinite `y` included, so `x * (1 / y) = x * (1 * y⁻¹) = x * y⁻¹ = x / y` for EVERY `x`, and
  addition there is commutative and associative. Nothing is asked to be finite. The divisor of a mean over a
  neighbourhood is `max (count, 1) ≥ 1`, never zero.
  Each entry reads one row of `A`, of `h` and of the scale: equal rows give equal entries, which is how a block of
  rows of the layer is the layer of the block.
  Also here: the word of 1.0 is the extended real 1, and a column `[a, 1]` broadcast along the rows to `[a, b]` reads,
  at (p, c), the column's entry of row p. Everything is generic in the extents.
-/
import Idealize.ShloMosaic.PureOps.Ideal
import Idealize.ShloMosaic.PureOps.Ideal.Laws
import Idealize.ShloMosaic.Lib.ValueIdx
import Idealize.ShloMosaic.Lib.Pipeline.Value
import proofs.«178199_j67130338837023_1_alg».proof.Proof.LibDotNT

noncomputable section

namespace Cert.MeanConv

open Idealize.ShloMosaic Idealize.ShloMosaic.ValueIdx Cert.LibDotNT

/-! ## The two scalar facts -/

/-- The single-precision word of 1.0 is the extended real 1. -/
theorem word_one : Ideal.ofBits .f32 0x3F800000#32 = 1 := by
  simp [Ideal.ofBits, Ideal.ieee]
  rw [← EReal.coe_mul]; norm_num

/-- Multiplying by the reciprocal of a nonzero extended real is dividing by it, whatever the numerator. -/
theorem mul_recip (x y : EReal) (hy : y ≠ 0) : x * Ideal.div 1 y = Ideal.div x y := by
  unfold Ideal.div
  rw [if_neg hy, if_neg hy, one_mul]

/-- A count floored at one is not zero. -/
theorem max_one_ne_zero (c : EReal) : max c 1 ≠ 0 :=
  (lt_of_lt_of_le zero_lt_one (le_max_right c 1)).ne'

/-! ## A column broadcast along the rows -/

/-- An `[a, 1]` column broadcast to `[a, b]` reads, at `(p, c)`, the column's entry of row `p`. -/
theorem broadcast_column {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The layer, two ways -/

/-- The layer with each row of the neighbour sum SCALED by that row's factor `s (r, 0)` before the product, the two
    products added first and the bias row `b (0, j)` last. -/
def scaled {n d e : ℕ} (A h : (⟨2, ![n, d]⟩ : Shape).Idx → EReal) (s : (⟨2, ![n, 1]⟩ : Shape).Idx → EReal)
    (wl wr : (⟨2, ![e, d]⟩ : Shape).Idx → EReal) (b : (⟨2, ![1, e]⟩ : Shape).Idx → EReal) (z : EReal) :
    (⟨2, ![n, e]⟩ : Shape).Idx → EReal :=
  fun i => max ((rowDot (fun j => A j * s (ix2 (j 0) (0 : Fin 1))) wl i + rowDot h wr i) + b (ix2 (0 : Fin 1) (i 1))) z

/-- The layer with each row of the neighbour sum DIVIDED by that row's divisor `q r`, the bias `b j` added to the
    first product and the second product last. -/
def divided {n d e : ℕ} (A h : (⟨2, ![n, d]⟩ : Shape).Idx → EReal) (q : (⟨1, ![n]⟩ : Shape).Idx → EReal)
    (wl wr : (⟨2, ![e, d]⟩ : Shape).Idx → EReal) (b : (⟨1, ![e]⟩ : Shape).Idx → EReal) (z : EReal) :
    (⟨2, ![n, e]⟩ : Shape).Idx → EReal :=
  fun i => max ((rowDot (fun j => Ideal.div (A j) (q (ix1 (j 0)))) wl i + b (ix1 (i 1))) + rowDot h wr i) z

/-- The two are one function when the scale is the reciprocal of a divisor that is nowhere zero and the bias row is
    the bias. -/
theorem scaled_eq_divided {n d e : ℕ} (A h : (⟨2, ![n, d]⟩ : Shape).Idx → EReal)
    (s : (⟨2, ![n, 1]⟩ : Shape).Idx → EReal) (q : (⟨1, ![n]⟩ : Shape).Idx → EReal)
    (wl wr : (⟨2, ![e, d]⟩ : Shape).Idx → EReal) (b2 : (⟨2, ![1, e]⟩ : Shape).Idx → EReal)
    (b : (⟨1, ![e]⟩ : Shape).Idx → EReal) (z : EReal)
    (hs : ∀ r : Fin n, s (ix2 r (0 : Fin 1)) = Ideal.div 1 (q (ix1 r)))
    (hq : ∀ r : Fin n, q (ix1 r) ≠ 0)
    (hb : ∀ j : Fin e, b2 (ix2 (0 : Fin 1) j) = b (ix1 j)) :
    scaled A h s wl wr b2 z = divided A h q wl wr b z := by
  funext i
  have hrow : (fun j : (⟨2, ![n, d]⟩ : Shape).Idx => A j * s (ix2 (j 0) (0 : Fin 1)))
      = fun j => Ideal.div (A j) (q (ix1 (j 0))) :=
    funext fun j => (congrArg (A j * ·) (hs (j 0))).trans (mul_recip (A j) _ (hq (j 0)))
  show max ((rowDot (fun j => A j * s (ix2 (j 0) (0 : Fin 1))) wl i + rowDot h wr i) + b2 (ix2 (0 : Fin 1) (i 1))) z
      = max ((rowDot (fun j => Ideal.div (A j) (q (ix1 (j 0)))) wl i + b (ix1 (i 1))) + rowDot h wr i) z
  rw [hrow, hb (i 1), add_right_comm]

/-- Entry (r, j) of the scaled layer reads row r of the neighbour sum, of the features and of the scale: arrays
    with those rows equal, of any heights, give the same entry. -/
theorem scaled_row_congr {n n' d e : ℕ} (A h : (⟨2, ![n, d]⟩ : Shape).Idx → EReal) (s : (⟨2, ![n, 1]⟩ : Shape).Idx → EReal)
    (A' h' : (⟨2, ![n', d]⟩ : Shape).Idx → EReal) (s' : (⟨2, ![n', 1]⟩ : Shape).Idx → EReal)
    (wl wr : (⟨2, ![e, d]⟩ : Shape).Idx → EReal) (b : (⟨2, ![1, e]⟩ : Shape).Idx → EReal) (z : EReal)
    (r : Fin n) (r' : Fin n') (j : Fin e)
    (hA : ∀ k : Fin d, A (ix2 r k) = A' (ix2 r' k)) (hh : ∀ k : Fin d, h (ix2 r k) = h' (ix2 r' k))
    (hsr : s (ix2 r (0 : Fin 1)) = s' (ix2 r' (0 : Fin 1))) :
    scaled A h s wl wr b z (ix2 r j) = scaled A' h' s' wl wr b z (ix2 r' j) := by
  show max ((rowDot (fun j => A j * s (ix2 (j 0) (0 : Fin 1))) wl (ix2 r j) + rowDot h wr (ix2 r j)) + b (ix2 (0 : Fin 1) j)) z
      = max ((rowDot (fun j => A' j * s' (ix2 (j 0) (0 : Fin 1))) wl (ix2 r' j) + rowDot h' wr (ix2 r' j)) + b (ix2 (0 : Fin 1) j)) z
  rw [rowDot_congr (fun j => A j * s (ix2 (j 0) (0 : Fin 1))) wl (fun j => A' j * s' (ix2 (j 0) (0 : Fin 1))) wl r j r' j
        (fun k => by show A (ix2 r k) * s (ix2 r (0 : Fin 1)) = A' (ix2 r' k) * s' (ix2 r' (0 : Fin 1)); rw [hA k, hsr])
        (fun _ => rfl),
      rowDot_congr h wr h' wr r j r' j hh (fun _ => rfl)]

end Cert.MeanConv

end
-- ==== Proof.SageSpec.lean ====
/-
  One layer of a graph convolution with mean aggregation, on the extended reals, index by index, in the two
  arrangements this certificate compares.

  For node features `h : [n, K]`, the sum `A : [n, K]` of each node's in-neighbours' feature rows, a per-node count
  floored at one `q : [n]`, weights `ws wn : [K, d]` (already transposed) and a bias `b : [d]`, the layer's entry
  (r, j) is
      (∑ k, h (r, k) · ws (k, j)  +  ∑ k, (A (r, k) / q r) · wn (k, j))  +  b j ,
  optionally floored at zero. One side divides each row of `A` by `q r`; the other multiplies it by the
  reciprocal `1 / q r` taken once. Dividing by `y ≠ 0` is multiplying by `y⁻¹` on the extended reals, for every
  numerator, and `q r = max (count, 1) ≥ 1` is never zero: the two rows of means are the same row, and nothing is
  asked to be finite.
-/
import Idealize.ShloMosaic.PureOps.Ideal
import Idealize.ShloMosaic.PureOps.Ideal.Laws
import Idealize.ShloMosaic.Lib.ValueIdx
import proofs.«178199_j67130338837023_1_alg».proof.Proof.LibDense
import proofs.«178199_j67130338837023_1_alg».proof.Proof.LibMeanConv

noncomputable section

namespace Cert.Sage

open Idealize.ShloMosaic Idealize.ShloMosaic.ValueIdx

/-- Each row of the neighbour sum divided by that row's divisor. -/
def meanDiv {n K : ℕ} (A : (⟨2, ![n, K]⟩ : Shape).Idx → EReal) (q : (⟨1, ![n]⟩ : Shape).Idx → EReal) :
    (⟨2, ![n, K]⟩ : Shape).Idx → EReal :=
  fun j => Ideal.div (A j) (q (ix1 (j 0)))

/-- Each row of the neighbour sum multiplied by the reciprocal of that row's divisor, the numerator of the
    reciprocal being the single-precision word of 1.0. -/
def meanMul {n K : ℕ} (A : (⟨2, ![n, K]⟩ : Shape).Idx → EReal) (q : (⟨1, ![n]⟩ : Shape).Idx → EReal) :
    (⟨2, ![n, K]⟩ : Shape).Idx → EReal :=
  fun j => A j * Ideal.div (Ideal.ofBits .f32 0x3F800000#32) (q (ix1 (j 0)))

/-- The two rows of means are one function when the divisor is a count floored at the word of 1.0. -/
theorem meanMul_eq_meanDiv {n K : ℕ} (A : (⟨2, ![n, K]⟩ : Shape).Idx → EReal) (cnt : (⟨1, ![n]⟩ : Shape).Idx → EReal) :
    meanMul A (fun r => max (cnt r) (Ideal.ofBits .f32 0x3F800000#32))
      = meanDiv A (fun r => max (cnt r) (Ideal.ofBits .f32 0x3F800000#32)) := by
  funext j
  unfold meanMul meanDiv
  rw [Cert.MeanConv.word_one]
  exact Cert.MeanConv.mul_recip (A j) _ (Cert.MeanConv.max_one_ne_zero _)

/-- The layer with the rectifier, over the divided means. -/
def layerRelu {n K d : ℕ} (h A : (⟨2, ![n, K]⟩ : Shape).Idx → EReal) (q : (⟨1, ![n]⟩ : Shape).Idx → EReal)
    (ws wn : (⟨2, ![K, d]⟩ : Shape).Idx → EReal) (b : (⟨1, ![d]⟩ : Shape).Idx → EReal) : (⟨2, ![n, d]⟩ : Shape).Idx → EReal :=
  Cert.LibDense.relu h (meanDiv A q) ws wn b

/-- The layer without the rectifier, over the divided means. -/
def layerAffine {n K d : ℕ} (h A : (⟨2, ![n, K]⟩ : Shape).Idx → EReal) (q : (⟨1, ![n]⟩ : Shape).Idx → EReal)
    (ws wn : (⟨2, ![K, d]⟩ : Shape).Idx → EReal) (b : (⟨1, ![d]⟩ : Shape).Idx → EReal) : (⟨2, ![n, d]⟩ : Shape).Idx → EReal :=
  Cert.LibDense.affine h (meanDiv A q) ws wn b

end Cert.Sage

end
-- ==== Proof.KLayer.lean ====
/-
  One layer as the kernel arranges it is the layer over the divided means.

  The kernel's host side multiplies row r of the neighbour sum by `1.0 / max (count r, 1.0)`; dividing the row by
  `max (count r, 1.0)` is the same row (the divisor is at least one, never zero; nothing is asked to be finite). A
  `[d]` bias laid out as a `[1, d]` row and read back at (0, j) is the bias at j.
  Every reading is stated over arbitrary vectors first — the neighbour sum and the count are never opened.
-/
import proofs.«178199_j67130338837023_1_alg».proof.Proof.KStages
import proofs.«178199_j67130338837023_1_alg».proof.Proof.KBody
import proofs.«178199_j67130338837023_1_alg».proof.Proof.SageSpec
import Idealize.ShloMosaic.Lib.Pipeline.Value
import Idealize.ShloMosaic.Lib.ValueIdx

noncomputable section

namespace Cert.KernelIdeal.Layer

open Cert.KernelIdeal Cert.KernelIdeal.Facts₀ Cert.KernelIdeal.Stages Cert.KernelIdeal.Body
open Idealize.ShloMosaic Idealize.ShloMosaic.ValueIdx

/-- A scalar broadcast to a vector reads the scalar everywhere. -/
theorem splat_apply (w : BitVec 32) (r : Fin 50000) :
    broadcastInDim S50000 ![] bcast_S_S50000 (constant (F := Ideal) S_ .f32 w) (ix1 r) = Ideal.ofBits .f32 w :=
  broadcastInDim_apply _ bcast_S_S50000 (constant (F := Ideal) S_ .f32 w) (ix1 r) ix0 (fun a => a.elim0)

/-- The larger of a vector and a splat, at an entry. -/
theorem max_splat_apply (v : FVec Ideal S50000 .f32) (w : BitVec 32) (r : Fin 50000) :
    maximumf v (broadcastInDim S50000 ![] bcast_S_S50000 (constant (F := Ideal) S_ .f32 w)) (ix1 r)
      = max (v (ix1 r)) (Ideal.ofBits .f32 w) :=
  congrArg (max (v (ix1 r))) (splat_apply w r)

/-- A splat divided by a vector, at an entry. -/
theorem splat_div_apply (v : FVec Ideal S50000 .f32) (w : BitVec 32) (r : Fin 50000) :
    Host.divf (broadcastInDim S50000 ![] bcast_S_S50000 (constant (F := Ideal) S_ .f32 w)) v (ix1 r)
      = Ideal.div (Ideal.ofBits .f32 w) (v (ix1 r)) :=
  congrArg (fun t => Ideal.div t (v (ix1 r))) (splat_apply w r)

/-- A vector laid out as a column and broadcast along the rows reads, at (p, q), the vector at p. -/
theorem column_apply (v : FVec Ideal S50000 .f32) (p : Fin 50000) (q : Fin 96) :
    broadcastInDim S50000x96 ![0, 1] bcast_S50000x1_S50000x96_0_1 (broadcastInDim S50000x1 ![0] bcast_S50000_S50000x1_0 v) (ix2 p q)
      = v (ix1 p) := by
  refine (broadcastInDim_apply _ bcast_S50000x1_S50000x96_0_1 _ (ix2 p q) (ix2 p (0 : Fin 1)) (fun a => ?_)).trans ?_
  · match a with
    | ⟨0, _⟩ => exact (if_neg (show ¬ (50000 : ℕ) = 1 by omega)).symm
    | ⟨1, _⟩ => exact (if_pos rfl).symm
  · refine broadcastInDim_apply _ bcast_S50000_S50000x1_0 v (ix2 p (0 : Fin 1)) (ix1 p) (fun a => ?_)
    match a with
    | ⟨0, _⟩ => exact (if_neg (show ¬ (50000 : ℕ) = 1 by omega)).symm

/-- Rows scaled by a vector, at an entry. -/
theorem scaleRows_apply (A : FVec Ideal S50000x96 .f32) (v : FVec Ideal S50000 .f32) (p : Fin 50000) (q : Fin 96) :
    scaleRows A v (ix2 p q) = A (ix2 p q) * v (ix1 p) :=
  congrArg (A (ix2 p q) * ·) (column_apply v p q)

/-- Rows scaled by `1.0 / max (c, 1.0)` are the rows divided by `max (c, 1.0)`, for any vector `c`. -/
theorem scaled_eq_meanDiv_of (A : FVec Ideal S50000x96 .f32) (cnt : FVec Ideal S50000 .f32) :
    scaleRows A (Host.divf (broadcastInDim S50000 ![] bcast_S_S50000 (constant (F := Ideal) S_ .f32 0x3F800000#32))
        (maximumf cnt (broadcastInDim S50000 ![] bcast_S_S50000 (constant (F := Ideal) S_ .f32 0x3F800000#32))))
      = Cert.Sage.meanDiv (n := 50000) (K := 96) A
          (maximumf cnt (broadcastInDim S50000 ![] bcast_S_S50000 (constant (F := Ideal) S_ .f32 0x3F800000#32))) := by
  have hq : (maximumf cnt (broadcastInDim S50000 ![] bcast_S_S50000 (constant (F := Ideal) S_ .f32 0x3F800000#32))
        : (⟨1, ![50000]⟩ : Shape).Idx → EReal)
      = fun r => max (cnt r) (Ideal.ofBits .f32 0x3F800000#32) :=
    funext fun r => by rw [eq_ix1 r]; exact max_splat_apply cnt 0x3F800000#32 (r 0)
  refine Eq.trans ?_ ((congrArg (Cert.Sage.meanDiv (n := 50000) (K := 96) A) hq).trans
    (Cert.Sage.meanMul_eq_meanDiv (n := 50000) (K := 96) A cnt).symm).symm
  funext j
  obtain ⟨p, q, rfl⟩ : ∃ (p : Fin 50000) (q : Fin 96), j = ix2 p q := ⟨j 0, j 1, eq_ix2 j⟩
  refine (scaleRows_apply A _ p q).trans ?_
  unfold Cert.Sage.meanMul
  refine congrArg (A (ix2 p q) * ·) ?_
  refine (splat_div_apply _ 0x3F800000#32 p).trans ?_
  exact congrArg (Ideal.div (Ideal.ofBits .f32 0x3F800000#32)) (max_splat_apply cnt 0x3F800000#32 p)

/-- The rows scaled by the reciprocal are the rows divided by the floored count. -/
theorem scaled_eq_meanDiv (A : FVec Ideal S50000x96 .f32) (dst : IVec S800000 32) :
    scaleRows A (recip dst) = Cert.Sage.meanDiv (n := 50000) (K := 96) A (floored dst) := by
  unfold recip floored
  exact scaled_eq_meanDiv_of A (count dst)

/-- A `[96]` bias laid out as a row, read back as a vector, is the bias. -/
theorem biasRow96_vec (b : FVec Ideal S96 .f32) : rowVec (biasRow96 b) = b := by
  funext j
  unfold rowVec biasRow96
  refine (shapeCast_addUnit_apply ![96] b shapeCasts_S96_S1x96 _).trans (congrArg b (funext fun a => ?_))
  match a with
  | ⟨0, _⟩ => rfl

/-- A `[64]` bias laid out as a row, read back as a vector, is the bias. -/
theorem biasRow64_vec (b : FVec Ideal S64 .f32) : rowVec (biasRow64 b) = b := by
  funext j
  unfold rowVec biasRow64
  refine (shapeCast_addUnit_apply ![64] b shapeCasts_S64_S1x64 _).trans (congrArg b (funext fun a => ?_))
  match a with
  | ⟨0, _⟩ => rfl

/-- The rectified layer as the kernel arranges it. -/
theorem relu_eq (h : FVec Ideal S50000x96 .f32) (src dst : IVec S800000 32) (ws wn : FVec Ideal S96x96 .f32) (b : FVec Ideal S96 .f32) :
    Cert.LibDense.relu (n := 50000) (K := 96) (d := 96) h (scaleRows (neighbourSum h src dst) (recip dst)) ws wn (rowVec (biasRow96 b))
      = Cert.Sage.layerRelu (n := 50000) (K := 96) (d := 96) h (neighbourSum h src dst) (floored dst) ws wn b := by
  unfold Cert.Sage.layerRelu
  rw [scaled_eq_meanDiv, biasRow96_vec]

/-- The last layer as the kernel arranges it. -/
theorem affine_eq (h : FVec Ideal S50000x96 .f32) (src dst : IVec S800000 32) (ws wn : FVec Ideal S96x64 .f32) (b : FVec Ideal S64 .f32) :
    Cert.LibDense.affine (n := 50000) (K := 96) (d := 64) h (scaleRows (neighbourSum h src dst) (recip dst)) ws wn (rowVec (biasRow64 b))
      = Cert.Sage.layerAffine (n := 50000) (K := 96) (d := 64) h (neighbourSum h src dst) (floored dst) ws wn b := by
  unfold Cert.Sage.layerAffine
  rw [scaled_eq_meanDiv, biasRow64_vec]

end Cert.KernelIdeal.Layer

end
-- ==== Proof.KRun.lean ====
/-
  The idealized kernel's run with its result array kept.

  @main is three kernel launches among stretches of host operations. Every weakly fair execution terminates, and at
  the end every buffer that outlives a launch holds the contents of the last boundary of the run — the fold of the
  host stretches and of what each launch's write-backs leave. The frame statement keeps only the twelve
  arguments of that; here the result buffer is kept as well, at the last boundary's contents.
-/
import proofs.«178199_j67130338837023_1_alg».proof.Proof.Gen.KernelIdeal.Frame

set_option maxRecDepth 16384

noncomputable section

namespace Cert.KernelIdeal.RunOut

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last
    boundary's contents and the argument arrays as launched. -/
theorem run_out : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c)⟩)

end Cert.KernelIdeal.RunOut

end
-- ==== Proof.KValue.lean ====
/-
  The idealized kernel's result as three nested layers of its arguments.

  Launch k's result array is the dense layer of the five arrays it finds; the host stretch before it wrote four of
  them from the previous result (the scaled neighbour sum, the transposed weights, the bias row). Rewriting each
  boundary by the one before it, and each scaled layer by the layer over the divided means, gives the result buffer
  as the last layer of the second layer of the first layer of the node features.
-/
import proofs.«178199_j67130338837023_1_alg».proof.Proof.KHost
import proofs.«178199_j67130338837023_1_alg».proof.Proof.KLayer
import proofs.«178199_j67130338837023_1_alg».proof.Proof.KRun

set_option maxRecDepth 16384

noncomputable section

namespace Cert.KernelIdeal.KValue

open Cert.KernelIdeal Cert.KernelIdeal.Gen Cert.KernelIdeal.Body Cert.KernelIdeal.Stages Cert.KernelIdeal.HostRead
open Idealize.ShloMosaic Idealize.ShloMosaic.TcCoe Idealize.SL.Sem

variable (m : (ℓ : Loc nD τ sig) → Buf (Elt Ideal) ℓ) (ρ : Dev nD → PrngReg) (c : Dev nD)

/-- The node features after the first layer. -/
def h1 : (⟨2, ![50000, 96]⟩ : Shape).Idx → EReal :=
  Cert.Sage.layerRelu (n := 50000) (K := 96) (d := 96) (m ((c : Thread nD τ).loc main_arg0))
    (neighbourSum (m ((c : Thread nD τ).loc main_arg0)) (m ((c : Thread nD τ).loc main_arg1)) (m ((c : Thread nD τ).loc main_arg2))) (floored (m ((c : Thread nD τ).loc main_arg2)))
    (transposed96 (m ((c : Thread nD τ).loc main_arg3))) (transposed96 (m ((c : Thread nD τ).loc main_arg4))) (m ((c : Thread nD τ).loc main_arg5))

/-- The node features after the second layer. -/
def h2 : (⟨2, ![50000, 96]⟩ : Shape).Idx → EReal :=
  Cert.Sage.layerRelu (n := 50000) (K := 96) (d := 96) (h1 m c)
    (neighbourSum (h1 m c) (m ((c : Thread nD τ).loc main_arg1)) (m ((c : Thread nD τ).loc main_arg2))) (floored (m ((c : Thread nD τ).loc main_arg2)))
    (transposed96 (m ((c : Thread nD τ).loc main_arg6))) (transposed96 (m ((c : Thread nD τ).loc main_arg7))) (m ((c : Thread nD τ).loc main_arg8))

/-- The result: the last layer. -/
def out : (⟨2, ![50000, 64]⟩ : Shape).Idx → EReal :=
  Cert.Sage.layerAffine (n := 50000) (K := 96) (d := 64) (h2 m c)
    (neighbourSum (h2 m c) (m ((c : Thread nD τ).loc main_arg1)) (m ((c : Thread nD τ).loc main_arg2))) (floored (m ((c : Thread nD τ).loc main_arg2)))
    (transposed64 (m ((c : Thread nD τ).loc main_arg9))) (transposed64 (m ((c : Thread nD τ).loc main_arg10))) (m ((c : Thread nD τ).loc main_arg11))

/-- After launch 0 its result array holds the first layer. -/
theorem layer0 : W2 m ρ c (Proc.devRef .tc main_v24) = h1 m c := by
  rw [b2_v24]
  unfold Cert.KernelIdeal.Blocks0.whole
  show Cert.LibDense.relu (n := 50000) (K := 96) (d := 96) (W1 m ρ c (Proc.devRef .tc main_arg0)) (W1 m ρ c (Proc.devRef .tc main_v20))
      (W1 m ρ c (Proc.devRef .tc main_v21)) (W1 m ρ c (Proc.devRef .tc main_v22)) (rowVec (W1 m ρ c (Proc.devRef .tc main_v23))) = _
  rw [s0_arg0, s0_v20, s0_v21, s0_v22, s0_v23]
  exact Cert.KernelIdeal.Layer.relu_eq _ _ _ _ _ _

/-- After launch 1 its result array holds the second layer. -/
theorem layer1 : W4 m ρ c (Proc.devRef .tc main_v41) = h2 m c := by
  rw [b4_v41]
  unfold Cert.KernelIdeal.Blocks1.whole
  show Cert.LibDense.relu (n := 50000) (K := 96) (d := 96) (W3 m ρ c (Proc.devRef .tc main_v24)) (W3 m ρ c (Proc.devRef .tc main_v37))
      (W3 m ρ c (Proc.devRef .tc main_v38)) (W3 m ρ c (Proc.devRef .tc main_v39)) (rowVec (W3 m ρ c (Proc.devRef .tc main_v40))) = _
  rw [s1_v24, s1_v37, s1_v38, s1_v39, s1_v40, layer0, k2_v7, k2_arg1, k2_arg2, k2_arg6, k2_arg7, k2_arg8]
  exact Cert.KernelIdeal.Layer.relu_eq _ _ _ _ _ _

/-- After launch 2 the result buffer holds the last layer. -/
theorem layer2 : W6 m ρ c (Proc.devRef .tc main_v58) = out m c := by
  rw [b6_v58]
  unfold Cert.KernelIdeal.Blocks2.whole
  show Cert.LibDense.affine (n := 50000) (K := 96) (d := 64) (W5 m ρ c (Proc.devRef .tc main_v41)) (W5 m ρ c (Proc.devRef .tc main_v54))
      (W5 m ρ c (Proc.devRef .tc main_v55)) (W5 m ρ c (Proc.devRef .tc main_v56)) (rowVec (W5 m ρ c (Proc.devRef .tc main_v57))) = _
  rw [s2_v41, s2_v54, s2_v55, s2_v56, s2_v57, layer1, k4_v7, k4_arg1, k4_arg2, k4_arg9, k4_arg10, k4_arg11]
  exact Cert.KernelIdeal.Layer.affine_eq _ _ _ _ _ _

/-- The idealized kernel's run: it terminates with the result buffer at the three nested layers and the arguments
    unchanged. -/
theorem run : θ_run (Cert.KernelIdeal.defs (F := Ideal)) (onTc (τ := τ) (Cert.KernelIdeal.main (F := Ideal))) ⟨m, fun _ => 0, ρ⟩
    (fun r => ∀ c : Dev nD,
      r.2.mem ((c.tc : Thread nD τ).loc main_v58) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run (Cert.KernelIdeal.defs (F := Ideal)) _ _).mono (fun r h c => ⟨(h c).1.trans (layer2 m ρ c), (h c).2⟩)
    (Cert.KernelIdeal.RunOut.run_out (F := Ideal) m ρ)

end Cert.KernelIdeal.KValue

end
-- ==== Proof.RStages.lean ====
/-
  What the reference's host operations compute, as named functions on the extended reals.

  In every layer the reference forms, from the current node features `h`, the edge sources `src` and the edge
  destinations `dst`: the neighbour sum (row `src e` of `h` gathered for every edge, a negative source counted from
  the end and the row number clamped; the gathered rows added into row `dst e` of a zero array, an out-of-range
  destination dropped) and the in-degree count floored at 1.0; it divides each row of the neighbour sum by that row's
  floored count, transposes the two weight matrices, and adds the bias to every row. The gather and the two
  scatter-adds are not opened: they are the same operations, on the same operands, on the kernel's side.
-/
import proofs.«178199_j67130338837023_1_alg».proof.Proof.Gen.ReferenceIdeal
import Idealize.ShloMosaic.PureOps.Ideal

noncomputable section

namespace Cert.ReferenceIdeal.Stages

open Cert.ReferenceIdeal Cert.ReferenceIdeal.Facts₀ Idealize.ShloMosaic

/-- The edge sources as gather row numbers: a negative one has 50000 added, and the vector is laid out as a column. -/
def srcColumn (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The edge destinations laid out as a column. -/
def dstColumn (dst : IVec S800000 32) : IVec S800000x1 32 :=
  broadcastInDim S800000x1 ![0] bcast_S800000_S800000x1_0 dst

/-- The neighbour sum of `h`. -/
def neighbourSum (h : FVec Ideal S50000x96 .f32) (src dst : IVec S800000 32) : FVec Ideal S50000x96 .f32 :=
  Host.scatterAdd scatter_S50000x96_S800000x1_S800000x96_1_0_0_1
    (broadcastInDim S50000x96 ![] bcast_S_S50000x96 (constant (F := Ideal) S_ .f32 0x00000000#32)) (dstColumn dst)
    (Host.gather gather_S50000x96_S800000x1_S800000x96_1_0_n_n_0_1_196 h (srcColumn src))

/-- The in-degree count of every node. -/
def count (dst : IVec S800000 32) : FVec Ideal S50000 .f32 :=
  Host.scatterAdd scatter_S50000_S800000x1_S800000_n_0_0_1
    (broadcastInDim S50000 ![] bcast_S_S50000 (constant (F := Ideal) S_ .f32 0x00000000#32)) (dstColumn dst)
    (broadcastInDim S800000 ![] bcast_S_S800000 (constant (F := Ideal) S_ .f32 0x3F800000#32))

/-- The count floored at 1.0. -/
def floored (dst : IVec S800000 32) : FVec Ideal S50000 .f32 :=
  maximumf (count dst) (broadcastInDim S50000 ![] bcast_S_S50000 (constant (F := Ideal) S_ .f32 0x3F800000#32))

/-- The `[96, 96]` weights transposed. -/
def transposed96 (w : FVec Ideal S96x96 .f32) : FVec Ideal S96x96 .f32 :=
  transpose S96x96 [1, 0] w transposes_S96x96_S96x96_1_0

/-- The `[64, 96]` weights transposed. -/
def transposed64 (w : FVec Ideal S64x96 .f32) : FVec Ideal S96x64 .f32 :=
  transpose S96x64 [1, 0] w transposes_S64x96_S96x64_1_0

/-- Each row of the neighbour sum divided by that row's floored count. -/
def dividedSum (h : FVec Ideal S50000x96 .f32) (src dst : IVec S800000 32) : FVec Ideal S50000x96 .f32 :=
  Host.divf (neighbourSum h src dst)
    (broadcastInDim S50000x96 ![0, 1] bcast_S50000x1_S50000x96_0_1 (broadcastInDim S50000x1 ![0] bcast_S50000_S50000x1_0 (floored dst)))

/-- One rectified layer, as the reference's operations compose it. -/
def layer96 (h : FVec Ideal S50000x96 .f32) (src dst : IVec S800000 32) (ws wn : FVec Ideal S96x96 .f32) (b : FVec Ideal S96 .f32) :
    FVec Ideal S50000x96 .f32 :=
  maximumf
    (addf
      (addf (Host.dotGeneral dot_S50000x96_S96x96_S50000x96_1_0_0_1_n_n none h (transposed96 ws))
        (Host.dotGeneral dot_S50000x96_S96x96_S50000x96_1_0_0_1_n_n none (dividedSum h src dst) (transposed96 wn)))
      (broadcastInDim S50000x96 ![0, 1] bcast_S1x96_S50000x96_0_1 (broadcastInDim S1x96 ![1] bcast_S96_S1x96_1 b)))
    (broadcastInDim S50000x96 ![] bcast_S_S50000x96 (constant (F := Ideal) S_ .f32 0x00000000#32))

/-- The last layer, as the reference's operations compose it. -/
def layer64 (h : FVec Ideal S50000x96 .f32) (src dst : IVec S800000 32) (ws wn : FVec Ideal S64x96 .f32) (b : FVec Ideal S64 .f32) :
    FVec Ideal S50000x64 .f32 :=
  addf
    (addf (Host.dotGeneral dot_S50000x96_S96x64_S50000x64_1_0_0_1_n_n none h (transposed64 ws))
      (Host.dotGeneral dot_S50000x96_S96x64_S50000x64_1_0_0_1_n_n none (dividedSum h src dst) (transposed64 wn)))
    (broadcastInDim S50000x64 ![0, 1] bcast_S1x64_S50000x64_0_1 (broadcastInDim S1x64 ![1] bcast_S64_S1x64_1 b))

end Cert.ReferenceIdeal.Stages

end
-- ==== Proof.RValue.lean ====
/-
  The reference's result as three nested layers of its arguments.

  The reference's run ends with its result buffer at the composed term of its operations; that term is the last
  layer of the second layer of the first layer of the node features, each layer over the same edge lists: the
  composed term is those three compositions written out.
-/
import proofs.«178199_j67130338837023_1_alg».proof.Proof.Gen.ReferenceIdeal.Run
import proofs.«178199_j67130338837023_1_alg».proof.Proof.RStages

set_option maxRecDepth 16384

noncomputable section

namespace Cert.ReferenceIdeal.RefValue

open Cert.ReferenceIdeal Cert.ReferenceIdeal.Stages Idealize.ShloMosaic Idealize.ShloMosaic.TcCoe Idealize.SL.Sem

variable (m : (ℓ : Loc nD τ sig) → Buf (Elt Ideal) ℓ) (c : Dev nD)

/-- The node features after the first layer. -/
def h1 : FVec Ideal S50000x96 .f32 :=
  layer96 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))

/-- The node features after the second layer. -/
def h2 : FVec Ideal S50000x96 .f32 :=
  layer96 (h1 m c) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8))

/-- The result: the last layer. -/
def out : FVec Ideal S50000x64 .f32 :=
  layer64 (h2 m c) (m ((c.tc : Thread nD τ).loc main_arg1)) (m ((c.tc : Thread nD τ).loc main_arg2)) (m ((c.tc : Thread nD τ).loc main_arg9)) (m ((c.tc : Thread nD τ).loc main_arg10)) (m ((c.tc : Thread nD τ).loc main_arg11))

set_option maxHeartbeats 4000000 in
/-- The run's result term is that composition. -/
theorem result_eq : Cert.ReferenceIdeal.Value.res_main_v82 (F := Ideal) m c = out m c := by
  unfold Cert.ReferenceIdeal.Value.res_main_v82
  rfl

end Cert.ReferenceIdeal.RefValue

end
-- ==== Proof.RLayer.lean ====
/-
  One layer as the reference composes it, read at an entry: the layer over the divided means.

  A dot_general contracting the rows' last axis against the weights' first is the row-by-column sum; the division is
  entry by entry, the divisor being the floored count of the entry's row (a vector laid out as a column and broadcast
  along the rows); the bias, laid out as a row and broadcast down the rows, adds `b j` to column j; the rectifier is
  the larger of the entry and the zero word's value.
-/
import proofs.«178199_j67130338837023_1_alg».proof.Proof.RStages
import proofs.«178199_j67130338837023_1_alg».proof.Proof.SageSpec
import proofs.«178199_j67130338837023_1_alg».proof.Proof.LibDense
import Idealize.ShloMosaic.Lib.Pipeline.Value
import Idealize.ShloMosaic.Lib.ValueIdx
import Idealize.ShloMosaic.PureOps.Ideal.Laws

noncomputable section

namespace Cert.ReferenceIdeal.Layer

open Cert.ReferenceIdeal Cert.ReferenceIdeal.Facts₀ Cert.ReferenceIdeal.Stages
open Idealize.ShloMosaic Idealize.ShloMosaic.ValueIdx

/-- A vector laid out as a column and broadcast along the rows reads, at (p, q), the vector at p. -/
theorem column_apply (v : FVec Ideal S50000 .f32) (p : Fin 50000) (q : Fin 96) :
    broadcastInDim S50000x96 ![0, 1] bcast_S50000x1_S50000x96_0_1 (broadcastInDim S50000x1 ![0] bcast_S50000_S50000x1_0 v) (ix2 p q)
      = v (ix1 p) := by
  refine (broadcastInDim_apply _ bcast_S50000x1_S50000x96_0_1 _ (ix2 p q) (ix2 p (0 : Fin 1)) (fun a => ?_)).trans ?_
  · match a with
    | ⟨0, _⟩ => exact (if_neg (show ¬ (50000 : ℕ) = 1 by omega)).symm
    | ⟨1, _⟩ => exact (if_pos rfl).symm
  · refine broadcastInDim_apply _ bcast_S50000_S50000x1_0 v (ix2 p (0 : Fin 1)) (ix1 p) (fun a => ?_)
    match a with
    | ⟨0, _⟩ => exact (if_neg (show ¬ (50000 : ℕ) = 1 by omega)).symm

/-- An array divided by a vector laid out as a column and broadcast along the rows, at an entry. -/
theorem div_column_apply (A : FVec Ideal S50000x96 .f32) (v : FVec Ideal S50000 .f32) (p : Fin 50000) (q : Fin 96) :
    Host.divf A (broadcastInDim S50000x96 ![0, 1] bcast_S50000x1_S50000x96_0_1 (broadcastInDim S50000x1 ![0] bcast_S50000_S50000x1_0 v)) (ix2 p q)
      = Ideal.div (A (ix2 p q)) (v (ix1 p)) :=
  congrArg (Ideal.div (A (ix2 p q))) (column_apply v p q)

/-- So that array is the rows of `A` divided by the vector's entries, for any `A` and any vector. -/
theorem divided_eq_of (A : FVec Ideal S50000x96 .f32) (v : FVec Ideal S50000 .f32) :
    Host.divf A (broadcastInDim S50000x96 ![0, 1] bcast_S50000x1_S50000x96_0_1 (broadcastInDim S50000x1 ![0] bcast_S50000_S50000x1_0 v))
      = Cert.Sage.meanDiv (n := 50000) (K := 96) A v := by
  funext j
  obtain ⟨p, q, rfl⟩ : ∃ (p : Fin 50000) (q : Fin 96), j = ix2 p q := ⟨j 0, j 1, eq_ix2 j⟩
  exact div_column_apply A v p q

/-- The divided neighbour sum is the rows of means. -/
theorem dividedSum_eq (h : FVec Ideal S50000x96 .f32) (src dst : IVec S800000 32) :
    dividedSum h src dst = Cert.Sage.meanDiv (n := 50000) (K := 96) (neighbourSum h src dst) (floored dst) := by
  unfold dividedSum
  exact divided_eq_of _ _

/-- A `[96]` bias laid out as a row and broadcast down the rows reads, at (p, q), the bias at q. -/
theorem bias96_apply (b : FVec Ideal S96 .f32) (p : Fin 50000) (q : Fin 96) :
    broadcastInDim S50000x96 ![0, 1] bcast_S1x96_S50000x96_0_1 (broadcastInDim S1x96 ![1] bcast_S96_S1x96_1 b) (ix2 p q) = b (ix1 q) := by
  refine (broadcastInDim_apply _ bcast_S1x96_S50000x96_0_1 _ (ix2 p q) (ix2 (0 : Fin 1) q) (fun a => ?_)).trans ?_
  · match a with
    | ⟨0, _⟩ => exact (if_pos rfl).symm
    | ⟨1, _⟩ => exact (if_neg (show ¬ (96 : ℕ) = 1 by omega)).symm
  · refine broadcastInDim_apply _ bcast_S96_S1x96_1 b (ix2 (0 : Fin 1) q) (ix1 q) (fun a => ?_)
    match a with
    | ⟨0, _⟩ => exact (if_neg (show ¬ (96 : ℕ) = 1 by omega)).symm

/-- A `[64]` bias laid out as a row and broadcast down the rows reads, at (p, q), the bias at q. -/
theorem bias64_apply (b : FVec Ideal S64 .f32) (p : Fin 50000) (q : Fin 64) :
    broadcastInDim S50000x64 ![0, 1] bcast_S1x64_S50000x64_0_1 (broadcastInDim S1x64 ![1] bcast_S64_S1x64_1 b) (ix2 p q) = b (ix1 q) := by
  refine (broadcastInDim_apply _ bcast_S1x64_S50000x64_0_1 _ (ix2 p q) (ix2 (0 : Fin 1) q) (fun a => ?_)).trans ?_
  · match a with
    | ⟨0, _⟩ => exact (if_pos rfl).symm
    | ⟨1, _⟩ => exact (if_neg (show ¬ (64 : ℕ) = 1 by omega)).symm
  · refine broadcastInDim_apply _ bcast_S64_S1x64_1 b (ix2 (0 : Fin 1) q) (ix1 q) (fun a => ?_)
    match a with
    | ⟨0, _⟩ => exact (if_neg (show ¬ (64 : ℕ) = 1 by omega)).symm

/-- A zero scalar broadcast to the array reads the zero word's value everywhere. -/
theorem zero_apply (j : S50000x96.Idx) :
    broadcastInDim S50000x96 ![] bcast_S_S50000x96 (constant (F := Ideal) S_ .f32 0x00000000#32) j = Ideal.ofBits .f32 0x00000000#32 :=
  broadcastInDim_apply _ bcast_S_S50000x96 (constant (F := Ideal) S_ .f32 0x00000000#32) j ix0 (fun a => a.elim0)

/-- The reference's dense operations on any two row operands, two weights and a bias, at an entry: the rectified
    dense layer. -/
theorem dense96_apply (h hm : FVec Ideal S50000x96 .f32) (ws wn : FVec Ideal S96x96 .f32) (b : FVec Ideal S96 .f32)
    (p : Fin 50000) (q : Fin 96) :
    maximumf
        (addf
          (addf (Host.dotGeneral dot_S50000x96_S96x96_S50000x96_1_0_0_1_n_n none h ws)
            (Host.dotGeneral dot_S50000x96_S96x96_S50000x96_1_0_0_1_n_n none hm wn))
          (broadcastInDim S50000x96 ![0, 1] bcast_S1x96_S50000x96_0_1 (broadcastInDim S1x96 ![1] bcast_S96_S1x96_1 b)))
        (broadcastInDim S50000x96 ![] bcast_S_S50000x96 (constant (F := Ideal) S_ .f32 0x00000000#32)) (ix2 p q)
      = Cert.LibDense.relu (n := 50000) (K := 96) (d := 96) h hm ws wn b (ix2 p q) := by
  unfold Cert.LibDense.relu Cert.LibDense.affine
  refine congrArg₂ max (congrArg₂ (· + ·) (congrArg₂ (· + ·) ?_ ?_) ?_) ?_
  · exact Cert.LibDense.dotGeneral_plain (M := 50000) (K := 96) (N := 96) .single h ws (ix2 p q)
  · exact Cert.LibDense.dotGeneral_plain (M := 50000) (K := 96) (N := 96) .single hm wn (ix2 p q)
  · exact bias96_apply b p q
  · exact zero_apply (ix2 p q)

/-- The same without the rectifier, onto 64 columns. -/
theorem dense64_apply (h hm : FVec Ideal S50000x96 .f32) (ws wn : FVec Ideal S96x64 .f32) (b : FVec Ideal S64 .f32)
    (p : Fin 50000) (q : Fin 64) :
    addf
        (addf (Host.dotGeneral dot_S50000x96_S96x64_S50000x64_1_0_0_1_n_n none h ws)
          (Host.dotGeneral dot_S50000x96_S96x64_S50000x64_1_0_0_1_n_n none hm wn))
        (broadcastInDim S50000x64 ![0, 1] bcast_S1x64_S50000x64_0_1 (broadcastInDim S1x64 ![1] bcast_S64_S1x64_1 b)) (ix2 p q)
      = Cert.LibDense.affine (n := 50000) (K := 96) (d := 64) h hm ws wn b (ix2 p q) := by
  unfold Cert.LibDense.affine
  refine congrArg₂ (· + ·) (congrArg₂ (· + ·) ?_ ?_) ?_
  · exact Cert.LibDense.dotGeneral_plain (M := 50000) (K := 96) (N := 64) .single h ws (ix2 p q)
  · exact Cert.LibDense.dotGeneral_plain (M := 50000) (K := 96) (N := 64) .single hm wn (ix2 p q)
  · exact bias64_apply b p q

/-- The rectified layer as the reference composes it. -/
theorem layer96_eq (h : FVec Ideal S50000x96 .f32) (src dst : IVec S800000 32) (ws wn : FVec Ideal S96x96 .f32) (b : FVec Ideal S96 .f32) :
    layer96 h src dst ws wn b
      = Cert.Sage.layerRelu (n := 50000) (K := 96) (d := 96) h (neighbourSum h src dst) (floored dst) (transposed96 ws) (transposed96 wn) b := by
  unfold layer96 Cert.Sage.layerRelu
  rw [← dividedSum_eq]
  funext j
  obtain ⟨p, q, rfl⟩ : ∃ (p : Fin 50000) (q : Fin 96), j = ix2 p q := ⟨j 0, j 1, eq_ix2 j⟩
  exact dense96_apply h (dividedSum h src dst) (transposed96 ws) (transposed96 wn) b p q

/-- The last layer as the reference composes it. -/
theorem layer64_eq (h : FVec Ideal S50000x96 .f32) (src dst : IVec S800000 32) (ws wn : FVec Ideal S64x96 .f32) (b : FVec Ideal S64 .f32) :
    layer64 h src dst ws wn b
      = Cert.Sage.layerAffine (n := 50000) (K := 96) (d := 64) h (neighbourSum h src dst) (floored dst) (transposed64 ws) (transposed64 wn) b := by
  unfold layer64 Cert.Sage.layerAffine
  rw [← dividedSum_eq]
  funext j
  obtain ⟨p, q, rfl⟩ : ∃ (p : Fin 50000) (q : Fin 64), j = ix2 p q := ⟨j 0, j 1, eq_ix2 j⟩
  exact dense64_apply h (dividedSum h src dst) (transposed64 ws) (transposed64 wn) b p q

end Cert.ReferenceIdeal.Layer

end
-- ==== Proof.Bridge.lean ====
/-
  The two results are one function of the arguments.

  Both sides are the same three nested layers over the divided means; the neighbour sum, the floored count and the
  transposes are the same operations with the same dimension numbers on both sides, so they are the same functions.
  Memories that agree on the twelve arguments therefore give equal results — no finiteness is used.
-/
import proofs.«178199_j67130338837023_1_alg».proof.Proof.KValue
import proofs.«178199_j67130338837023_1_alg».proof.Proof.RValue
import proofs.«178199_j67130338837023_1_alg».proof.Proof.RLayer

set_option maxRecDepth 16384

noncomputable section

namespace Cert.Bridge

open Idealize.ShloMosaic Idealize.ShloMosaic.TcCoe Idealize.SL.Sem

/-- The two sides' neighbour sums are one function. -/
theorem neighbourSum_eq : Cert.ReferenceIdeal.Stages.neighbourSum = Cert.KernelIdeal.Stages.neighbourSum := rfl

/-- The two sides' floored counts are one function. -/
theorem floored_eq : Cert.ReferenceIdeal.Stages.floored = Cert.KernelIdeal.Stages.floored := rfl

/-- The two sides' transposes are one function. -/
theorem transposed96_eq : Cert.ReferenceIdeal.Stages.transposed96 = Cert.KernelIdeal.Stages.transposed96 := rfl
theorem transposed64_eq : Cert.ReferenceIdeal.Stages.transposed64 = Cert.KernelIdeal.Stages.transposed64 := rfl

/-- From memories that agree on the arguments the reference's result is the kernel's. -/
theorem out_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.RefValue.out m' c = Cert.KernelIdeal.KValue.out m c := by
  unfold Cert.ReferenceIdeal.RefValue.out Cert.ReferenceIdeal.RefValue.h2 Cert.ReferenceIdeal.RefValue.h1
  simp only [Cert.ReferenceIdeal.Layer.layer96_eq, Cert.ReferenceIdeal.Layer.layer64_eq]
  rw [e0, e1, e2, e3, e4, e5, e6, e7, e8, e9, e10, e11, neighbourSum_eq, floored_eq, transposed96_eq, transposed64_eq]
  rfl

end Cert.Bridge

end
-- ==== Proof.lean ====
/-
  Three stacked graph-convolution layers with mean aggregation: the kernel against its reference, on the extended reals.

  Each layer takes node features `h : [50000, 96]`, gathers row `src e` for each of 800000 edges, adds the gathered
  rows into row `dst e` (the neighbour sum `A`), and returns
      (h · W_selfᵀ  +  mean · W_neighᵀ)  +  b ,      mean (r, ·) = A (r, ·) / max (in-degree r, 1) ,
  floored at zero after the first two layers. The reference divides every row of `A` by its floored in-degree inside
  each layer. The kernel forms the reciprocals `1 / max (in-degree, 1)` once, multiplies the rows of `A` by them, and
  computes the dense part of each layer in a launch over ten bands of 5000 rows, with both products taken at
  reduced precision into a single-precision accumulator.

  On the extended reals a change of float format is the identity, a matrix product is the row-by-column sum however
  it is tiled, and multiplying by the reciprocal of `y ≠ 0` is dividing by `y` for every numerator, infinite ones
  included; `max (count, 1) ≥ 1` is never zero. So both programs compute the same three nested layers of the
  arguments, and the precondition (finite inputs) is never opened. The gather and the scatter-adds are the same
  operations on the same operands on both sides and are not opened either.

  The frames of the two kernel programs are their generated frame certificates; the reference's frame is its
  generated run with the result dropped; the idealization rewrote nothing, so `preserves` is trivial.
-/
import proofs.«178199_j67130338837023_1_alg».proof.Defs
import proofs.«178199_j67130338837023_1_alg».proof.Proof.Gen.Kernel
import proofs.«178199_j67130338837023_1_alg».proof.Proof.Gen.Kernel.Skeleton
import proofs.«178199_j67130338837023_1_alg».proof.Proof.Gen.Kernel.Launch
import proofs.«178199_j67130338837023_1_alg».proof.Proof.Gen.Kernel.Points
import proofs.«178199_j67130338837023_1_alg».proof.Proof.Gen.Kernel.Frame
import proofs.«178199_j67130338837023_1_alg».proof.Proof.Gen.KernelIdeal
import proofs.«178199_j67130338837023_1_alg».proof.Proof.Gen.KernelIdeal.Skeleton
import proofs.«178199_j67130338837023_1_alg».proof.Proof.Gen.KernelIdeal.Launch
import proofs.«178199_j67130338837023_1_alg».proof.Proof.Gen.KernelIdeal.Points
import proofs.«178199_j67130338837023_1_alg».proof.Proof.Gen.KernelIdeal.Frame
import proofs.«178199_j67130338837023_1_alg».proof.Proof.Gen.ReferenceIdeal
import proofs.«178199_j67130338837023_1_alg».proof.Proof.Gen.Pre_finite_inputs
import proofs.«178199_j67130338837023_1_alg».proof.Proof.Gen.ReferenceIdeal.Run
import proofs.«178199_j67130338837023_1_alg».proof.Proof.KValue
import proofs.«178199_j67130338837023_1_alg».proof.Proof.RValue
import proofs.«178199_j67130338837023_1_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both idealized programs end with the three nested layers of the arguments in their result buffers. -/
theorem algebraic : Cert.algebraic_KernelIdeal_ReferenceIdeal := by
  intro m ρ m' ρ' _ hagree
  refine ⟨fun c => Cert.KernelIdeal.KValue.out m c, Cert.KernelIdeal.KValue.run m ρ, ?_⟩
  refine (θ_run Cert.ReferenceIdeal.defs _ _).mono (fun r h c => ⟨(h c).1.trans ?_, (h c).2⟩)
    (Cert.ReferenceIdeal.Value.run (F := Ideal) m' ρ')
  obtain ⟨e0, e1, e2, e3, e4, e5, e6, e7, e8, e9, e10, e11⟩ := hagree c
  exact (Cert.ReferenceIdeal.RefValue.result_eq m' c).trans (Cert.Bridge.out_eq m m' c e0 e1 e2 e3 e4 e5 e6 e7 e8 e9 e10 e11)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
